-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S1024x1024 : Shape := ⟨2, ![1024, 1024]⟩
abbrev S1024 : Shape := ⟨1, ![1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32x1024x1024 .f32) (main_arg1 : FVec F S32x1024x1024 .f32) (main_arg2 : FVec F S32x1024x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S32x1024x1024 .f32 := Host.absf main_arg2
  let main_cst_2 : FVec F S_ .f32 := constant S_ .f32 0x7F800000#32
  let main_v10 : FVec F S32x1024x1024 .f32 := broadcastInDim S32x1024x1024 ![] bcast_S_S32x1024x1024 main_cst_2
  let main_v11 : IVec S32x1024x1024 1 := cmpf .olt main_v9 main_v10
  let main_c_3 : IVec S_ 1 := constantI S_ 1 1#1
  let main_v12 : IVec S_ 1 := (fun x v => Host.reduce IntOp.andi x v reducesTo_S32x1024x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S32x1024x1024 : Shape := ⟨3, ![32, 1024, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S32768x16x64 : Shape := ⟨3, ![32768, 16, 64]⟩
abbrev S32768x16x16 : Shape := ⟨3, ![32768, 16, 16]⟩
abbrev S512x16x64 : Shape := ⟨3, ![512, 16, 64]⟩
abbrev S512x16x16 : Shape := ⟨3, ![512, 16, 16]⟩
abbrev S32768x64x16 : Shape := ⟨3, ![32768, 64, 16]⟩

abbrev nBuf : Space → Nat
  | .hbm => 25
  | .vmem => 28
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S1024x1024, .f32⟩
  | .hbm, ⟨13, _⟩ => ⟨S32768x1024, .bf16⟩
  | .hbm, ⟨14, _⟩ => ⟨S1024x1024, .f32⟩
  | .hbm, ⟨15, _⟩ => ⟨S32768x1024, .bf16⟩
  | .hbm, ⟨16, _⟩ => ⟨S1024x1024, .f32⟩
  | .hbm, ⟨17, _⟩ => ⟨S32768x1024, .bf16⟩
  | .hbm, ⟨18, _⟩ => ⟨S32768x16x64, .bf16⟩
  | .hbm, ⟨19, _⟩ => ⟨S32768x16x64, .bf16⟩
  | .hbm, ⟨20, _⟩ => ⟨S32768x16x64, .bf16⟩
  | .hbm, ⟨21, _⟩ => ⟨S32768x16x64, .f32⟩
  | .hbm, ⟨22, _⟩ => ⟨S32768x16x16, .f32⟩
  | .hbm, ⟨23, _⟩ => ⟨S32768x64x16, .f32⟩
  | .hbm, ⟨24, _⟩ => ⟨S32x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024, .f32⟩
  | .local _ .vmem, ⟨16, _⟩ => ⟨S1024x1024, .bf16⟩
  | .local _ .vmem, ⟨17, _⟩ => ⟨S1024x1024, .bf16⟩
  | .local _ .vmem, ⟨18, _⟩ => ⟨S512x16x64, .bf16⟩
  | .local _ .vmem, ⟨19, _⟩ => ⟨S512x16x64, .bf16⟩
  | .local _ .vmem, ⟨20, _⟩ => ⟨S512x16x64, .bf16⟩
  | .local _ .vmem, ⟨21, _⟩ => ⟨S512x16x64, .bf16⟩
  | .local _ .vmem, ⟨22, _⟩ => ⟨S512x16x64, .bf16⟩
  | .local _ .vmem, ⟨23, _⟩ => ⟨S512x16x64, .bf16⟩
  | .local _ .vmem, ⟨24, _⟩ => ⟨S512x16x64, .f32⟩
  | .local _ .vmem, ⟨25, _⟩ => ⟨S512x16x64, .f32⟩
  | .local _ .vmem, ⟨26, _⟩ => ⟨S512x16x16, .f32⟩
  | .local _ .vmem, ⟨27, _⟩ => ⟨S512x16x16, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S512x16x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x16x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x16x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x16x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x16x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  shapeCasts_S32x1024x1024_S32768x1024 : S32x1024x1024.ShapeCasts S32768x1024
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S32768x1024_S32768x16x64 : S32768x1024.ShapeCasts S32768x16x64
  inb_S512x16x64_S512x16x64_0_0_0 : ∀ a, (![0, 0, 0] : Fin 3 → Nat) a + S512x16x64.size a ≤ S512x16x64.size a
  h_S512x16x64 : 0 < S512x16x64.numel
  shapeCasts_S512x16x64_S512x16x64 : S512x16x64.ShapeCasts S512x16x64
  inb_S512x16x16_S512x16x16_0_0_0 : ∀ a, (![0, 0, 0] : Fin 3 → Nat) a + S512x16x16.size a ≤ S512x16x16.size a
  h_S512x16x16 : 0 < S512x16x16.numel
  transposes_S32768x16x64_S32768x64x16_0_2_1 : S32768x16x64.Transposes [0, 2, 1] S32768x64x16
  shapeCasts_S32768x64x16_S32x1024x1024 : S32768x64x16.ShapeCasts S32x1024x1024
  dot_S1024x1024_S1024x1024_S1024x1024_1_0_0_1_n_n_wf : DotDims.WF S1024x1024 S1024x1024 S1024x1024 [1] [0] [0] [1] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .bf16 = 32 ∨ (Rect.block (s := S32768x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S32768x1024.size a
  hwx1_0 : ∀ i : grid1.Coords, EltTy.bits .f32 = 32 ∨ (Rect.block (s := S32768x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S32768x1024.size a
  hwx1_3 : ∀ i : grid1.Coords, EltTy.bits .bf16 = 32 ∨ (Rect.block (s := S32768x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S32768x1024.size a
  hwx2_0 : ∀ i : grid2.Coords, EltTy.bits .f32 = 32 ∨ (Rect.block (s := S32768x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S32768x1024.size a
  hwx2_3 : ∀ i : grid2.Coords, EltTy.bits .bf16 = 32 ∨ (Rect.block (s := S32768x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x16x64.size a ≤ S32768x16x64.size a
  hwx3_0 : ∀ i : grid3.Coords, EltTy.bits .bf16 = 32 ∨ (Rect.block (s := S32768x16x64) S512x16x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x16x64.size a ≤ S32768x16x64.size a
  hwx3_1 : ∀ i : grid3.Coords, EltTy.bits .bf16 = 32 ∨ (Rect.block (s := S32768x16x64) S512x16x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x16x64.size a ≤ S32768x16x64.size a
  hwx3_2 : ∀ i : grid3.Coords, EltTy.bits .bf16 = 32 ∨ (Rect.block (s := S32768x16x64) S512x16x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x16x64.size a ≤ S32768x16x64.size a
  hwx3_3 : ∀ i : grid3.Coords, EltTy.bits .f32 = 32 ∨ (Rect.block (s := S32768x16x64) S512x16x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x16x16.size a ≤ S32768x16x16.size a
  hwx3_4 : ∀ i : grid3.Coords, EltTy.bits .f32 = 32 ∨ (Rect.block (s := S32768x16x16) S512x16x16.size (cc3_transform_4 i) (hinb3_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v9) S512x16x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S512x16x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S512x16x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v12_0) S512x16x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v12_1) S512x16x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S32x1024x1024 : Shape := ⟨3, ![32, 1024, 1024]⟩
abbrev S1024x1024 : Shape := ⟨2, ![1024, 1024]⟩
abbrev S1024 : Shape := ⟨1, ![1024]⟩
abbrev S1x1x1024 : Shape := ⟨3, ![1, 1, 1024]⟩
abbrev S32768x16x64 : Shape := ⟨3, ![32768, 16, 64]⟩
abbrev S32768x16x16 : Shape := ⟨3, ![32768, 16, 16]⟩
abbrev S_ : Shape := ⟨0, ![]⟩
abbrev S32768x64x16 : Shape := ⟨3, ![32768, 64, 16]⟩

abbrev nBuf : Space → Nat
  | .hbm => 33
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32x1024x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32x1024x1024, .f32⟩
  | .hbm, ⟨10, _⟩ => ⟨S1x1x1024, .f32⟩
  | .hbm, ⟨11, _⟩ => ⟨S32x1024x1024, .f32⟩
  | .hbm, ⟨12, _⟩ => ⟨S32x1024x1024, .f32⟩
  | .hbm, ⟨13, _⟩ => ⟨S32768x16x64, .f32⟩
  | .hbm, ⟨14, _⟩ => ⟨S32x1024x1024, .f32⟩
  | .hbm, ⟨15, _⟩ => ⟨S1x1x1024, .f32⟩
  | .hbm, ⟨16, _⟩ => ⟨S32x1024x1024, .f32⟩
  | .hbm, ⟨17, _⟩ => ⟨S32x1024x1024, .f32⟩
  | .hbm, ⟨18, _⟩ => ⟨S32768x16x64, .f32⟩
  | .hbm, ⟨19, _⟩ => ⟨S32x1024x1024, .f32⟩
  | .hbm, ⟨20, _⟩ => ⟨S1x1x1024, .f32⟩
  | .hbm, ⟨21, _⟩ => ⟨S32x1024x1024, .f32⟩
  | .hbm, ⟨22, _⟩ => ⟨S32x1024x1024, .f32⟩
  | .hbm, ⟨23, _⟩ => ⟨S32768x16x64, .f32⟩
  | .hbm, ⟨24, _⟩ => ⟨S32768x16x16, .f32⟩
  | .hbm, ⟨25, _⟩ => ⟨S_, .f32⟩
  | .hbm, ⟨26, _⟩ => ⟨S_, .f32⟩
  | .hbm, ⟨27, _⟩ => ⟨S32768x16x16, .f32⟩
  | .hbm, ⟨28, _⟩ => ⟨S32768x16x16, .f32⟩
  | .hbm, ⟨29, _⟩ => ⟨S32768x16x16, .f32⟩
  | .hbm, ⟨30, _⟩ => ⟨S32768x16x64, .f32⟩
  | .hbm, ⟨31, _⟩ => ⟨S32768x64x16, .f32⟩
  | .hbm, ⟨32, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  shapeCasts_S32x1024x1024_S32768x16x64 : S32x1024x1024.ShapeCasts S32768x16x64
  bcast_S_S32768x16x16 : S_.BroadcastsInDim S32768x16x16 (![] : Fin 0 → Fin S32768x16x16.rank)
  transposes_S32768x16x64_S32768x64x16_0_2_1 : S32768x16x64.Transposes [0, 2, 1] S32768x64x16
  shapeCasts_S32768x64x16_S32x1024x1024 : S32768x64x16.ShapeCasts S32x1024x1024
  dot_S32x1024x1024_S1024x1024_S32x1024x1024_2_1_01_0_n_n_wf : DotDims.WF S32x1024x1024 S1024x1024 S32x1024x1024 [2] [1] [0, 1] [0] [] []
  dot_S32768x16x64_S32768x16x64_S32768x16x16_2_2_1_1_0_0_wf : DotDims.WF S32768x16x64 S32768x16x64 S32768x16x16 [2] [2] [1] [1] [0] [0]
  dot_S32768x16x16_S32768x16x64_S32768x16x64_2_1_1_2_0_0_wf : DotDims.WF S32768x16x16 S32768x16x64 S32768x16x64 [2] [1] [1] [2] [0] [0]

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32768x16x64_S32768x16x64_S32768x16x16_2_2_1_1_0_0 : DotDims S32768x16x64 S32768x16x64 S32768x16x16 where
  lhsContracting := [2]
  rhsContracting := [2]
  lhsNonContracting := [1]
  rhsNonContracting := [1]
  lhsBatch := [0]
  rhsBatch := [0]
  wf := dot_S32768x16x64_S32768x16x64_S32768x16x16_2_2_1_1_0_0_wf
def dot_S32768x16x16_S32768x16x64_S32768x16x64_2_1_1_2_0_0 : DotDims S32768x16x16 S32768x16x64 S32768x16x64 where
  lhsContracting := [2]
  rhsContracting := [1]
  lhsNonContracting := [1]
  rhsNonContracting := [2]
  lhsBatch := [0]
  rhsBatch := [0]
  wf := dot_S32768x16x16_S32768x16x64_S32768x16x64_2_1_1_2_0_0_wf

class Facts : Prop extends Facts₀ where

variable [Facts]
-- ==== Proof.KernelRun.lean ====
/-
  The idealized kernel's whole run, with every buffer named. The program is five stretches of host
  operations around four kernel launches. Every weakly fair execution terminates without a fault, and
  at the end each buffer that outlives the launches holds the value obtained by folding, from the
  launch memory, each host stretch's operations and each launch's write-backs in program order. The
  two results and the nine arguments are read off this one statement.
-/
import proofs.«122427_j7524782702743_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every buffer that outlives the
    launches at the last boundary's contents: the fold of the host stretches and the launches'
    write-backs from the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Whole

end
-- ==== Proof.Fold.lean ====
/-
  What each buffer of the idealized kernel program holds at each boundary of the program, in terms of
  the nine argument arrays and of the final arrays of each kernel launch.

  The program is five stretches of host operations around four kernel launches:

    stretch 0   v0, v1, v2 := arg0, arg1, arg2 recast from [32,1024,1024] to [32768,1024];
                v3 := arg3 transposed
    launch 0    reads v0, v3, arg4; writes v4
    stretch 1   v5 := arg5 transposed
    launch 1    reads v1, v5, arg6; writes v6
    stretch 2   v7 := arg7 transposed
    launch 2    reads v2, v7, arg8; writes v8
    stretch 3   v9, v10, v11 := v4, v6, v8 recast from [32768,1024] to [32768,16,64]
    launch 3    reads v9, v10, v11; writes v12_0 and v12_1
    stretch 4   v13 := v12_0 with its last two axes exchanged; v14 := v13 recast to [32,1024,1024]

  and its results are v14 and v12_1. The contents at each boundary are a fold from the launch memory:
  a host operation rewrites its one result buffer to its function of its operand and leaves every other
  buffer, and a launch leaves each of its windows' arrays at the fold of the write-backs into it (an
  input array is never written, so stays as it entered) and leaves every other buffer.

  Every statement below is one walk back along that fold, from the boundary where the buffer is read
  to the operation or launch that last wrote it, and then from that operation's operand back to an
  argument array or to a launch's final array. Each step of a walk is one of two facts: the buffer is
  the result of an operation of the stretch, so holds the operation's function of its operand; or the
  buffer is written by no operation of the stretch (is no window's array of the launch), so holds what
  it held before. Since every buffer of this program is written exactly once, the second fact holds at
  every step between a buffer's one writer and its readers. Nothing here looks inside an array: it is
  all a matter of which buffer is which, so it holds at any interpretation `F` of the float types.
-/
import proofs.«122427_j7524782702743_2_alg».proof.Proof.Gen.KernelIdeal.Frame
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## Which buffer each window of each launch stages

Window `w` of launch `K` stages the array `Pipeline.arrRef specK w`; these are the buffers a launch may
leave changed, and every other buffer it leaves as it entered. The last window of launches 0, 1, 2 and
the last two of launch 3 are the outputs. -/

theorem arrRef_spec0 : Pipeline.arrRef spec0 0 = main_v0 ∧ Pipeline.arrRef spec0 1 = main_v3
    ∧ Pipeline.arrRef spec0 2 = main_arg4 ∧ Pipeline.arrRef spec0 3 = main_v4 := ⟨rfl, rfl, rfl, rfl⟩
theorem arrRef_spec1 : Pipeline.arrRef spec1 0 = main_v1 ∧ Pipeline.arrRef spec1 1 = main_v5
    ∧ Pipeline.arrRef spec1 2 = main_arg6 ∧ Pipeline.arrRef spec1 3 = main_v6 := ⟨rfl, rfl, rfl, rfl⟩
theorem arrRef_spec2 : Pipeline.arrRef spec2 0 = main_v2 ∧ Pipeline.arrRef spec2 1 = main_v7
    ∧ Pipeline.arrRef spec2 2 = main_arg8 ∧ Pipeline.arrRef spec2 3 = main_v8 := ⟨rfl, rfl, rfl, rfl⟩
theorem arrRef_spec3 : Pipeline.arrRef spec3 0 = main_v9 ∧ Pipeline.arrRef spec3 1 = main_v10
    ∧ Pipeline.arrRef spec3 2 = main_v11 ∧ Pipeline.arrRef spec3 3 = main_v12_0
    ∧ Pipeline.arrRef spec3 4 = main_v12_1 := ⟨rfl, rfl, rfl, rfl, rfl⟩

/-! ## Entry of launch 0: after stretch 0, from the launch memory

Stretch 0 is the only thing that has run, so each of its results is its function of an argument array as
launched, and an argument is as launched since the stretch writes `v0 … v3` only. -/

/-- `v0` is `arg0` recast to [32768,1024]: the first operation's result, written by none of the three after it. -/
theorem V1_v0 (c : Dev nD) :
    V1 m ρ c main_v0 = shapeCast _ (m ((c : Thread nD τ).loc main_arg0)) shapeCasts_S32x1024x1024_S32768x1024 := by
  show StableHlo.after hostOps0 (W0 m ρ c) (Proc.devRef .tc main_v0) = _
  after_results
  rfl

/-- `v3` is `arg3` transposed: the last operation's result; the three before it leave `arg3` as launched. -/
theorem V1_v3 (c : Dev nD) :
    V1 m ρ c main_v3 = transpose S1024x1024 [1, 0] (m ((c : Thread nD τ).loc main_arg3)) transposes_S1024x1024_S1024x1024_1_0 := by
  show StableHlo.after hostOps0 (W0 m ρ c) (Proc.devRef .tc main_v3) = _
  after_results

/-- `arg4` is as launched: no operation of stretch 0 writes it. -/
theorem V1_arg4 (c : Dev nD) : V1 m ρ c main_arg4 = m ((c : Thread nD τ).loc main_arg4) := by
  show StableHlo.after hostOps0 (W0 m ρ c) (Proc.devRef .tc main_arg4) = _
  after_results

/-! ## Entry of launch 1: after stretch 0, launch 0 and stretch 1

Launch 0's arrays are `v0, v3, arg4, v4` and stretch 1 writes `v5` only, so `v1`, `arg5` and `arg6` pass
through both unchanged. -/

/-- `v1` is `arg1` recast to [32768,1024]: written in stretch 0; not `v5`, and no array of launch 0. -/
theorem V3_v1 (c : Dev nD) :
    V3 m ρ c main_v1 = shapeCast _ (m ((c : Thread nD τ).loc main_arg1)) shapeCasts_S32x1024x1024_S32768x1024 :=
  calc V3 m ρ c main_v1
    _ = W2 m ρ c (Proc.devRef .tc main_v1) := by
        show StableHlo.after hostOps1 (W2 m ρ c) (Proc.devRef .tc main_v1) = _
        after_results
    _ = W1 m ρ c (Proc.devRef .tc main_v1) := W2_of_ne m ρ c main_v1 (by decide)
    _ = _ := by
        show StableHlo.after hostOps0 (W0 m ρ c) (Proc.devRef .tc main_v1) = _
        after_results
        rfl

/-- `v5` is `arg5` transposed: stretch 1's one result, of an operand that is no array of launch 0 and that
    stretch 0 does not write, so is as launched. -/
theorem V3_v5 (c : Dev nD) :
    V3 m ρ c main_v5 = transpose S1024x1024 [1, 0] (m ((c : Thread nD τ).loc main_arg5)) transposes_S1024x1024_S1024x1024_1_0 :=
  calc V3 m ρ c main_v5
    _ = transpose S1024x1024 [1, 0] (W2 m ρ c (Proc.devRef .tc main_arg5)) transposes_S1024x1024_S1024x1024_1_0 := by
        show StableHlo.after hostOps1 (W2 m ρ c) (Proc.devRef .tc main_v5) = _
        after_results
    _ = transpose S1024x1024 [1, 0] (W1 m ρ c (Proc.devRef .tc main_arg5)) transposes_S1024x1024_S1024x1024_1_0 := by
        rw [W2_of_ne m ρ c main_arg5 (by decide)]
    _ = _ := by
        show transpose S1024x1024 [1, 0] (StableHlo.after hostOps0 (W0 m ρ c) (Proc.devRef .tc main_arg5)) _ = _
        after_results

/-- `arg6` is as launched: neither stretch writes it and it is no array of launch 0. -/
theorem V3_arg6 (c : Dev nD) : V3 m ρ c main_arg6 = m ((c : Thread nD τ).loc main_arg6) :=
  calc V3 m ρ c main_arg6
    _ = W2 m ρ c (Proc.devRef .tc main_arg6) := by
        show StableHlo.after hostOps1 (W2 m ρ c) (Proc.devRef .tc main_arg6) = _
        after_results
    _ = W1 m ρ c (Proc.devRef .tc main_arg6) := W2_of_ne m ρ c main_arg6 (by decide)
    _ = _ := by
        show StableHlo.after hostOps0 (W0 m ρ c) (Proc.devRef .tc main_arg6) = _
        after_results

/-! ## Entry of launch 2: after stretches 0, 1, 2 and launches 0, 1

Launch 1's arrays are `v1, v5, arg6, v6` and stretch 2 writes `v7` only, so `v2`, `arg7` and `arg8` pass
through launches 0 and 1 and stretches 1 and 2 unchanged. -/

/-- `v2` is `arg2` recast to [32768,1024]: written in stretch 0; not `v5` or `v7`, and no array of launch 0 or 1. -/
theorem V5_v2 (c : Dev nD) :
    V5 m ρ c main_v2 = shapeCast _ (m ((c : Thread nD τ).loc main_arg2)) shapeCasts_S32x1024x1024_S32768x1024 :=
  calc V5 m ρ c main_v2
    _ = W4 m ρ c (Proc.devRef .tc main_v2) := by
        show StableHlo.after hostOps2 (W4 m ρ c) (Proc.devRef .tc main_v2) = _
        after_results
    _ = W3 m ρ c (Proc.devRef .tc main_v2) := W4_of_ne m ρ c main_v2 (by decide)
    _ = W2 m ρ c (Proc.devRef .tc main_v2) := by
        show StableHlo.after hostOps1 (W2 m ρ c) (Proc.devRef .tc main_v2) = _
        after_results
    _ = W1 m ρ c (Proc.devRef .tc main_v2) := W2_of_ne m ρ c main_v2 (by decide)
    _ = _ := by
        show StableHlo.after hostOps0 (W0 m ρ c) (Proc.devRef .tc main_v2) = _
        after_results
        rfl

/-- At launch 1's exit `arg7` is as launched: no array of launch 0 or 1, and written by neither stretch before. -/
theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by
        show StableHlo.after hostOps1 (W2 m ρ c) (Proc.devRef .tc main_arg7) = _
        after_results
    _ = W1 m ρ c (Proc.devRef .tc main_arg7) := W2_of_ne m ρ c main_arg7 (by decide)
    _ = _ := by
        show StableHlo.after hostOps0 (W0 m ρ c) (Proc.devRef .tc main_arg7) = _
        after_results

/-- `v7` is `arg7` transposed: stretch 2's one result, of an operand still as launched. -/
theorem V5_v7 (c : Dev nD) :
    V5 m ρ c main_v7 = transpose S1024x1024 [1, 0] (m ((c : Thread nD τ).loc main_arg7)) transposes_S1024x1024_S1024x1024_1_0 :=
  calc V5 m ρ c main_v7
    _ = transpose S1024x1024 [1, 0] (W4 m ρ c (Proc.devRef .tc main_arg7)) transposes_S1024x1024_S1024x1024_1_0 := by
        show StableHlo.after hostOps2 (W4 m ρ c) (Proc.devRef .tc main_v7) = _
        after_results
    _ = _ := by rw [W4_arg7 m ρ c]

/-- `arg8` is as launched: no stretch writes it and it is no array of launch 0 or 1. -/
theorem V5_arg8 (c : Dev nD) : V5 m ρ c main_arg8 = m ((c : Thread nD τ).loc main_arg8) :=
  calc V5 m ρ c main_arg8
    _ = W4 m ρ c (Proc.devRef .tc main_arg8) := by
        show StableHlo.after hostOps2 (W4 m ρ c) (Proc.devRef .tc main_arg8) = _
        after_results
    _ = W3 m ρ c (Proc.devRef .tc main_arg8) := W4_of_ne m ρ c main_arg8 (by decide)
    _ = W2 m ρ c (Proc.devRef .tc main_arg8) := by
        show StableHlo.after hostOps1 (W2 m ρ c) (Proc.devRef .tc main_arg8) = _
        after_results
    _ = W1 m ρ c (Proc.devRef .tc main_arg8) := W2_of_ne m ρ c main_arg8 (by decide)
    _ = _ := by
        show StableHlo.after hostOps0 (W0 m ρ c) (Proc.devRef .tc main_arg8) = _
        after_results

/-! ## Entry of launch 3: after stretches 0 … 3 and launches 0, 1, 2

Each of launches 0, 1, 2 writes one output array (`v4`, `v6`, `v8`: its window 3), which no later launch
stages and no later stretch writes, so at launch 2's exit each still holds its launch's final array.
Stretch 3 recasts the three to [32768,16,64]. -/

/-- At launch 2's exit `v4` holds launch 0's final output: not `v5` or `v7`, and no array of launch 1 or 2. -/
theorem W6_v4 (c : Dev nD) : W6 m ρ c (Proc.devRef .tc main_v4) = (dat0 (V1 m ρ) c).arrAt 3 cfg0.N :=
  calc W6 m ρ c (Proc.devRef .tc main_v4)
    _ = W5 m ρ c (Proc.devRef .tc main_v4) := W6_of_ne m ρ c main_v4 (by decide)
    _ = W4 m ρ c (Proc.devRef .tc main_v4) := by
        show StableHlo.after hostOps2 (W4 m ρ c) (Proc.devRef .tc main_v4) = _
        after_results
    _ = W3 m ρ c (Proc.devRef .tc main_v4) := W4_of_ne m ρ c main_v4 (by decide)
    _ = W2 m ρ c (Proc.devRef .tc main_v4) := by
        show StableHlo.after hostOps1 (W2 m ρ c) (Proc.devRef .tc main_v4) = _
        after_results
    _ = _ := W2_arr m ρ c 3

/-- At launch 2's exit `v6` holds launch 1's final output: not `v7`, and no array of launch 2. -/
theorem W6_v6 (c : Dev nD) : W6 m ρ c (Proc.devRef .tc main_v6) = (dat1 (V3 m ρ) c).arrAt 3 cfg1.N :=
  calc W6 m ρ c (Proc.devRef .tc main_v6)
    _ = W5 m ρ c (Proc.devRef .tc main_v6) := W6_of_ne m ρ c main_v6 (by decide)
    _ = W4 m ρ c (Proc.devRef .tc main_v6) := by
        show StableHlo.after hostOps2 (W4 m ρ c) (Proc.devRef .tc main_v6) = _
        after_results
    _ = _ := W4_arr m ρ c 3

/-- At launch 2's exit `v8` holds launch 2's final output. -/
theorem W6_v8 (c : Dev nD) : W6 m ρ c (Proc.devRef .tc main_v8) = (dat2 (V5 m ρ) c).arrAt 3 cfg2.N :=
  W6_arr m ρ c 3

/-- `v9` is launch 0's final output recast to [32768,16,64]. -/
theorem V7_v9 (c : Dev nD) :
    V7 m ρ c main_v9 = shapeCast _ ((dat0 (V1 m ρ) c).arrAt 3 cfg0.N) shapeCasts_S32768x1024_S32768x16x64 :=
  calc V7 m ρ c main_v9
    _ = shapeCast _ (W6 m ρ c (Proc.devRef .tc main_v4)) shapeCasts_S32768x1024_S32768x16x64 := by
        show StableHlo.after hostOps3 (W6 m ρ c) (Proc.devRef .tc main_v9) = _
        after_results
        rfl
    _ = _ := by rw [W6_v4 m ρ c]

/-- `v10` is launch 1's final output recast to [32768,16,64]. -/
theorem V7_v10 (c : Dev nD) :
    V7 m ρ c main_v10 = shapeCast _ ((dat1 (V3 m ρ) c).arrAt 3 cfg1.N) shapeCasts_S32768x1024_S32768x16x64 :=
  calc V7 m ρ c main_v10
    _ = shapeCast _ (W6 m ρ c (Proc.devRef .tc main_v6)) shapeCasts_S32768x1024_S32768x16x64 := by
        show StableHlo.after hostOps3 (W6 m ρ c) (Proc.devRef .tc main_v10) = _
        after_results
        rfl
    _ = _ := by rw [W6_v6 m ρ c]

/-- `v11` is launch 2's final output recast to [32768,16,64]. -/
theorem V7_v11 (c : Dev nD) :
    V7 m ρ c main_v11 = shapeCast _ ((dat2 (V5 m ρ) c).arrAt 3 cfg2.N) shapeCasts_S32768x1024_S32768x16x64 :=
  calc V7 m ρ c main_v11
    _ = shapeCast _ (W6 m ρ c (Proc.devRef .tc main_v8)) shapeCasts_S32768x1024_S32768x16x64 := by
        show StableHlo.after hostOps3 (W6 m ρ c) (Proc.devRef .tc main_v11) = _
        after_results
        rfl
    _ = _ := by rw [W6_v8 m ρ c]

/-! ## The two results, at the return

Launch 3 writes `v12_0` (window 3) and `v12_1` (window 4). Stretch 4 writes `v13` and `v14` only: `v13` from
`v12_0`, then `v14` from `v13`. -/

/-- The second result is launch 3's second final output: stretch 4 does not write `v12_1`. -/
theorem W9_v12_1 (c : Dev nD) : W9 m ρ c (Proc.devRef .tc main_v12_1) = (dat3 (V7 m ρ) c).arrAt 4 cfg3.N :=
  calc W9 m ρ c (Proc.devRef .tc main_v12_1)
    _ = W8 m ρ c (Proc.devRef .tc main_v12_1) := by
        show StableHlo.after hostOps4 (W8 m ρ c) (Proc.devRef .tc main_v12_1) = _
        after_results
    _ = _ := W8_arr m ρ c 4

/-- The first result is launch 3's first final output with its last two axes exchanged, recast to [32,1024,1024]. -/
theorem W9_v14 (c : Dev nD) :
    W9 m ρ c (Proc.devRef .tc main_v14)
      = shapeCast _ (transpose S32768x64x16 [0, 2, 1] ((dat3 (V7 m ρ) c).arrAt 3 cfg3.N)
          transposes_S32768x16x64_S32768x64x16_0_2_1) shapeCasts_S32768x64x16_S32x1024x1024 :=
  calc W9 m ρ c (Proc.devRef .tc main_v14)
    _ = shapeCast _ (transpose S32768x64x16 [0, 2, 1] (W8 m ρ c (Proc.devRef .tc main_v12_0))
          transposes_S32768x16x64_S32768x64x16_0_2_1) shapeCasts_S32768x64x16_S32x1024x1024 := by
        show StableHlo.after hostOps4 (W8 m ρ c) (Proc.devRef .tc main_v14) = _
        after_results
        rfl
    _ = _ := by rw [W8_arr m ρ c 3]

end Cert.KernelIdeal.Whole

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibBatchDot.lean ====
/-
  Two batched matrix products read at an index.

  Both have one batch axis, the leading one, shared by the two operands and the result.
  The SCORES product takes `[N, H, D]` and `[N, G, D]` to `[N, H, G]`, contracting the last axis of both:
  at `(n, h, g)` it is the sum over `d` of `lhs (n, h, d) * rhs (n, g, d)`, the inner product of row `h` of the
  left operand's `n`-th matrix with row `g` of the right operand's.
  The CONTEXT product takes `[N, H, G]` and `[N, G, D]` to `[N, H, D]`, contracting the left operand's last axis
  with the right operand's middle axis: at `(n, h, d)` it is the sum over `g` of `lhs (n, h, g) * rhs (n, g, d)`,
  the plain product of the two `n`-th matrices.
  The dimension numbers are the records below, whose side condition is a parameter: any record with the same
  lists is one of them by unfolding. The sums are on the extended reals, into a zero accumulator.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibBatchDot

open Idealize.ShloMosaic Idealize.ShloMosaic.ValueIdx

/-! ## The scores product: contract the last axis of both operands -/

/-- The dimension numbers of `[N, H, D] × [N, G, D] → [N, H, G]`, batch axis 0, contracting axis 2 of both. -/
abbrev scoresDot (N H G D : Nat)
    (wf : DotDims.WF ⟨3, ![N, H, D]⟩ ⟨3, ![N, G, D]⟩ ⟨3, ![N, H, G]⟩ [2] [2] [1] [1] [0] [0]) :
    DotDims ⟨3, ![N, H, D]⟩ ⟨3, ![N, G, D]⟩ ⟨3, ![N, H, G]⟩ where
  lhsContracting := [2]
  rhsContracting := [2]
  lhsNonContracting := [1]
  rhsNonContracting := [1]
  lhsBatch := [0]
  rhsBatch := [0]
  wf := wf

section
variable {N H G D : Nat} (wf : DotDims.WF ⟨3, ![N, H, D]⟩ ⟨3, ![N, G, D]⟩ ⟨3, ![N, H, G]⟩ [2] [2] [1] [1] [0] [0])

/-- The left operand's index for output `(n, h, g)` and contraction coordinate `d` is `(n, h, d)`. -/
theorem scoresDot_lhsIdx (n : Fin N) (h : Fin H) (g : Fin G) (d : Fin D) :
    (scoresDot N H G D wf).lhsIdx (ix3 n h g) ((contrEquiv1 (scoresDot N H G D wf) D rfl rfl).symm d) = ix3 n h d := by
  have hd := contrEquiv1_symm_val (scoresDot N H G D wf) D rfl rfl d
  funext a
  refine Fin.ext ?_
  match a with
  | ⟨0, _⟩ =>
    show ((scoresDot N H G D wf).lhsIdx (ix3 n h g) ((contrEquiv1 (scoresDot N H G D wf) D rfl rfl).symm d) 0).val = n.val
    unfold DotDims.lhsIdx
    rw [dif_pos (show (0 : Fin 3) ∈ (scoresDot N H G D wf).lhsBatch from List.mem_singleton.mpr rfl)]
    rfl
  | ⟨1, _⟩ =>
    show ((scoresDot N H G D wf).lhsIdx (ix3 n h g) ((contrEquiv1 (scoresDot N H G D wf) D rfl rfl).symm d) 1).val = h.val
    unfold DotDims.lhsIdx
    rw [dif_neg (show ¬(1 : Fin 3) ∈ (scoresDot N H G D wf).lhsBatch from fun hm => absurd (List.mem_singleton.mp hm) (show ¬((1 : Fin 3) = 0) by decide)),
      dif_pos (show (1 : Fin 3) ∈ (scoresDot N H G D wf).lhsNonContracting from List.mem_singleton.mpr rfl)]
    rfl
  | ⟨2, _⟩ =>
    exact ((scoresDot N H G D wf).lhsIdx_val_of_single (cl := (2 : Fin 3)) rfl (ix3 n h g) _).trans hd

/-- The right operand's index for output `(n, h, g)` and contraction coordinate `d` is `(n, g, d)`. -/
theorem scoresDot_rhsIdx (n : Fin N) (h : Fin H) (g : Fin G) (d : Fin D) :
    (scoresDot N H G D wf).rhsIdx (ix3 n h g) ((contrEquiv1 (scoresDot N H G D wf) D rfl rfl).symm d) = ix3 n g d := by
  have hd := contrEquiv1_symm_val (scoresDot N H G D wf) D rfl rfl d
  funext a
  refine Fin.ext ?_
  match a with
  | ⟨0, _⟩ =>
    show ((scoresDot N H G D wf).rhsIdx (ix3 n h g) ((contrEquiv1 (scoresDot N H G D wf) D rfl rfl).symm d) 0).val = n.val
    unfold DotDims.rhsIdx
    rw [dif_pos (show (0 : Fin 3) ∈ (scoresDot N H G D wf).rhsBatch from List.mem_singleton.mpr rfl)]
    rfl
  | ⟨1, _⟩ =>
    show ((scoresDot N H G D wf).rhsIdx (ix3 n h g) ((contrEquiv1 (scoresDot N H G D wf) D rfl rfl).symm d) 1).val = g.val
    unfold DotDims.rhsIdx
    rw [dif_neg (show ¬(1 : Fin 3) ∈ (scoresDot N H G D wf).rhsBatch from fun hm => absurd (List.mem_singleton.mp hm) (show ¬((1 : Fin 3) = 0) by decide)),
      dif_pos (show (1 : Fin 3) ∈ (scoresDot N H G D wf).rhsNonContracting from List.mem_singleton.mpr rfl)]
    rfl
  | ⟨2, _⟩ =>
    exact ((scoresDot N H G D wf).rhsIdx_val_of_single (cr := (2 : Fin 3)) rfl (ix3 n h g) _).trans hd

/-- THE SCORES PRODUCT INTO A ZERO ACCUMULATOR AT `(n, h, g)`: the sum over `d` of `lhs (n, h, d) * rhs (n, g, d)`. -/
theorem scores_zero_apply {φ₁ φ₂ : FTy} (prec : Option ContractPrecision)
    (lhs : FVec Ideal ⟨3, ![N, H, D]⟩ φ₁) (rhs : FVec Ideal ⟨3, ![N, G, D]⟩ φ₂) (n : Fin N) (h : Fin H) (g : Fin G) :
    FloatOps.matmul (scoresDot N H G D wf) prec lhs rhs (constant ⟨3, ![N, H, G]⟩ .f32 0x00000000#32) (ix3 n h g)
      = ∑ d : Fin D, lhs (ix3 n h d) * rhs (ix3 n g d) := by
  rw [Ideal.matmul_constant_zero_apply, ← Equiv.sum_comp (contrEquiv1 (scoresDot N H G D wf) D rfl rfl).symm]
  refine Finset.sum_congr rfl fun d _ => ?_
  rw [scoresDot_lhsIdx wf n h g d, scoresDot_rhsIdx wf n h g d]

end

/-! ## The context product: the left operand's last axis against the right operand's middle axis -/

/-- The dimension numbers of `[N, H, G] × [N, G, D] → [N, H, D]`, batch axis 0, contracting axis 2 with axis 1. -/
abbrev contextDot (N H G D : Nat)
    (wf : DotDims.WF ⟨3, ![N, H, G]⟩ ⟨3, ![N, G, D]⟩ ⟨3, ![N, H, D]⟩ [2] [1] [1] [2] [0] [0]) :
    DotDims ⟨3, ![N, H, G]⟩ ⟨3, ![N, G, D]⟩ ⟨3, ![N, H, D]⟩ where
  lhsContracting := [2]
  rhsContracting := [1]
  lhsNonContracting := [1]
  rhsNonContracting := [2]
  lhsBatch := [0]
  rhsBatch := [0]
  wf := wf

section
variable {N H G D : Nat} (wf : DotDims.WF ⟨3, ![N, H, G]⟩ ⟨3, ![N, G, D]⟩ ⟨3, ![N, H, D]⟩ [2] [1] [1] [2] [0] [0])

/-- The left operand's index for output `(n, h, d)` and contraction coordinate `g` is `(n, h, g)`. -/
theorem contextDot_lhsIdx (n : Fin N) (h : Fin H) (d : Fin D) (g : Fin G) :
    (contextDot N H G D wf).lhsIdx (ix3 n h d) ((contrEquiv1 (contextDot N H G D wf) G rfl rfl).symm g) = ix3 n h g := by
  have hg := contrEquiv1_symm_val (contextDot N H G D wf) G rfl rfl g
  funext a
  refine Fin.ext ?_
  match a with
  | ⟨0, _⟩ =>
    show ((contextDot N H G D wf).lhsIdx (ix3 n h d) ((contrEquiv1 (contextDot N H G D wf) G rfl rfl).symm g) 0).val = n.val
    unfold DotDims.lhsIdx
    rw [dif_pos (show (0 : Fin 3) ∈ (contextDot N H G D wf).lhsBatch from List.mem_singleton.mpr rfl)]
    rfl
  | ⟨1, _⟩ =>
    show ((contextDot N H G D wf).lhsIdx (ix3 n h d) ((contrEquiv1 (contextDot N H G D wf) G rfl rfl).symm g) 1).val = h.val
    unfold DotDims.lhsIdx
    rw [dif_neg (show ¬(1 : Fin 3) ∈ (contextDot N H G D wf).lhsBatch from fun hm => absurd (List.mem_singleton.mp hm) (show ¬((1 : Fin 3) = 0) by decide)),
      dif_pos (show (1 : Fin 3) ∈ (contextDot N H G D wf).lhsNonContracting from List.mem_singleton.mpr rfl)]
    rfl
  | ⟨2, _⟩ =>
    exact ((contextDot N H G D wf).lhsIdx_val_of_single (cl := (2 : Fin 3)) rfl (ix3 n h d) _).trans hg

/-- The right operand's index for output `(n, h, d)` and contraction coordinate `g` is `(n, g, d)`. -/
theorem contextDot_rhsIdx (n : Fin N) (h : Fin H) (d : Fin D) (g : Fin G) :
    (contextDot N H G D wf).rhsIdx (ix3 n h d) ((contrEquiv1 (contextDot N H G D wf) G rfl rfl).symm g) = ix3 n g d := by
  have hg := contrEquiv1_symm_val (contextDot N H G D wf) G rfl rfl g
  funext a
  refine Fin.ext ?_
  match a with
  | ⟨0, _⟩ =>
    show ((contextDot N H G D wf).rhsIdx (ix3 n h d) ((contrEquiv1 (contextDot N H G D wf) G rfl rfl).symm g) 0).val = n.val
    unfold DotDims.rhsIdx
    rw [dif_pos (show (0 : Fin 3) ∈ (contextDot N H G D wf).rhsBatch from List.mem_singleton.mpr rfl)]
    rfl
  | ⟨1, _⟩ =>
    exact ((contextDot N H G D wf).rhsIdx_val_of_single (cr := (1 : Fin 3)) rfl (ix3 n h d) _).trans hg
  | ⟨2, _⟩ =>
    show ((contextDot N H G D wf).rhsIdx (ix3 n h d) ((contrEquiv1 (contextDot N H G D wf) G rfl rfl).symm g) 2).val = d.val
    unfold DotDims.rhsIdx
    rw [dif_neg (show ¬(2 : Fin 3) ∈ (contextDot N H G D wf).rhsBatch from fun hm => absurd (List.mem_singleton.mp hm) (show ¬((2 : Fin 3) = 0) by decide)),
      dif_pos (show (2 : Fin 3) ∈ (contextDot N H G D wf).rhsNonContracting from List.mem_singleton.mpr rfl)]
    rfl

/-- THE CONTEXT PRODUCT INTO A ZERO ACCUMULATOR AT `(n, h, d)`: the sum over `g` of `lhs (n, h, g) * rhs (n, g, d)`. -/
theorem context_zero_apply {φ₁ φ₂ : FTy} (prec : Option ContractPrecision)
    (lhs : FVec Ideal ⟨3, ![N, H, G]⟩ φ₁) (rhs : FVec Ideal ⟨3, ![N, G, D]⟩ φ₂) (n : Fin N) (h : Fin H) (d : Fin D) :
    FloatOps.matmul (contextDot N H G D wf) prec lhs rhs (constant ⟨3, ![N, H, D]⟩ .f32 0x00000000#32) (ix3 n h d)
      = ∑ g : Fin G, lhs (ix3 n h g) * rhs (ix3 n g d) := by
  rw [Ideal.matmul_constant_zero_apply, ← Equiv.sum_comp (contrEquiv1 (contextDot N H G D wf) G rfl rfl).symm]
  refine Finset.sum_congr rfl fun g _ => ?_
  rw [contextDot_lhsIdx wf n h d g, contextDot_rhsIdx wf n h d g]

end

end Cert.LibBatchDot

end
-- ==== Proof.Payload.lean ====
/-
  The kernels' arithmetic at one index of a block, on the extended reals.

  A projection block: from a block x of 1024 token rows, the transposed weight matrix w and the bias b,
  the stored entry (p, q) is  (∑_e x(p,e) · w(e,q)) + b(q) : the matrix product into a zero accumulator,
  plus the bias row broadcast over the rows; the two narrowings to a shorter float format are the identity.
  An attention block of 512 tokens: the stored weight (n, h, g) is tanh of the inner product of head h of q
  with head g of k, times 0.125; the stored context (n, h, d) is the sum over g of that weight times
  v(n, g, d).
-/
import proofs.«122427_j7524782702743_2_alg».proof.Proof.Gen.KernelIdeal.Skeleton
import proofs.«122427_j7524782702743_2_alg».proof.Proof.LibPlainDot
import proofs.«122427_j7524782702743_2_alg».proof.Proof.LibBatchDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The bias, a vector of length 1024 viewed as one row and repeated over 1024 rows, reads its entry q at (p, q). -/
theorem bias_row (b : Vec Ideal S1024 .f32) (p q : Fin 1024) :
    broadcastTo S1024x1024 (shapeCast S1x1024 b shapeCasts_S1024_S1x1024) broadcasts_S1x1024_S1024x1024 (ix2 p q) = b (ix1 q) :=
  (broadcastTo_1b_ab_apply _ _ p q).trans (shapeCast_a_1a_apply b _ 0 q)

/-- A projection block's stored entry (p, q): row p of x against column q of w, plus the bias at q. -/
theorem linear_pay (x w : Vec Ideal S1024x1024 .f32) (b : Vec Ideal S1024 .f32) (p q : Fin 1024) :
    k0_pay1 (F := Ideal) x w b (ix2 p q) = (∑ e : Fin 1024, x (ix2 p e) * w (ix2 e q)) + b (ix1 q) := by
  unfold k0_pay1
  rw [shapeCast_self, shapeCast_self]
  show (_ : EReal) + _ = _
  refine congrArg₂ (fun u v : EReal => u + v) ?_ (bias_row b p q)
  exact Cert.LibPlainDot.matmul_zero_apply (φ₁ := .bf16) (φ₂ := .bf16)
    Facts₀.dot_S1024x1024_S1024x1024_S1024x1024_1_0_0_1_n_n_wf none _ _ p q

/-- The three projection kernels have one body. -/
theorem k1_pay1_eq : @k1_pay1 = @k0_pay1 := rfl
theorem k2_pay1_eq : @k2_pay1 = @k0_pay1 := rfl

/-- An attention block's stored weight (n, h, g). -/
theorem probs_pay (q k : Vec Ideal S512x16x64 .bf16) (n : Fin 512) (h g : Fin 16) :
    k3_pay1 (F := Ideal) q k (ix3 n h g)
      = Ideal.tanh ((∑ d : Fin 64, q (ix3 n h d) * k (ix3 n g d)) * Ideal.ofBits .f32 0x3E000000#32) := by
  unfold k3_pay1
  rw [shapeCast_self, shapeCast_self]
  show Ideal.tanh ((_ : EReal) * Ideal.ofBits .f32 0x3E000000#32) = _
  refine congrArg (fun s : EReal => Ideal.tanh (s * Ideal.ofBits .f32 0x3E000000#32)) ?_
  exact Cert.LibBatchDot.scores_zero_apply (φ₁ := .bf16) (φ₂ := .bf16)
    Facts₀.dot_S512x16x64_S512x16x64_S512x16x16_2_2_1_1_0_0_wf none _ _ n h g

/-- An attention block's stored context (n, h, d): the weights of head h against head g, times v's head g. -/
theorem ctx_pay (q k v : Vec Ideal S512x16x64 .bf16) (n : Fin 512) (h : Fin 16) (d : Fin 64) :
    k3_pay2 (F := Ideal) q k v (ix3 n h d) = ∑ g : Fin 16, k3_pay1 (F := Ideal) q k (ix3 n h g) * v (ix3 n g d) := by
  unfold k3_pay2
  rw [shapeCast_self]
  exact Cert.LibBatchDot.context_zero_apply (φ₁ := .bf16) (φ₂ := .bf16)
    Facts₀.dot_S512x16x16_S512x16x64_S512x16x64_2_1_1_2_0_0_wf none
    (truncf .bf16 (k3_pay1 (F := Ideal) q k) bitsLt_bf16_f32) v n h d

end Cert.KernelIdeal.Pay

end
-- ==== Proof.Spec.lean ====
/-
  What both programs compute, as functions of the argument arrays, index by index, on the extended reals.

  A token is a row n < 32768 of an input of shape [32, 1024, 1024] flattened over its first two axes
  (n = 1024·t + s). A projection sends the token's 1024 features x through a weight matrix W and a
  bias b:  y_j = (∑_e x_e · W_{j,e}) + b_j,  and the 1024 outputs are read as 16 heads of 64 features,
  j = 64·h + d.  For each token the scores of head h against head g are the inner product of the two
  heads' features scaled by 1/8, passed through tanh; the context of head h is the sum over g of those
  weights times head g's values.
-/
import Idealize.ShloMosaic.PureOps.Ideal
import Idealize.ShloMosaic.Lib.ValueIdx

noncomputable section

open scoped BigOperators

namespace Cert.Spec

open Idealize.ShloMosaic Idealize.ShloMosaic.ValueIdx

/-- Index sets, by their literal extents. -/
abbrev I3 (a b c : Nat) : Type := (⟨3, ![a, b, c]⟩ : Shape).Idx
abbrev I2 (a b : Nat) : Type := (⟨2, ![a, b]⟩ : Shape).Idx
abbrev I1 (a : Nat) : Type := (⟨1, ![a]⟩ : Shape).Idx

/-- The feature j = 64·h + d of head h, entry d. -/
def feat (h : Fin 16) (d : Fin 64) : Fin 1024 := ⟨h.val * 64 + d.val, by have := h.isLt; have := d.isLt; omega⟩
/-- The batch t = n / 1024 and the position s = n % 1024 of token n. -/
def tokT (n : Fin 32768) : Fin 32 := ⟨n.val / 1024, by have := n.isLt; omega⟩
def tokS (n : Fin 32768) : Fin 1024 := ⟨n.val % 1024, Nat.mod_lt _ (by norm_num)⟩

/-- One projection over the flattened tokens, the weight matrix already transposed:
    row n, column j is (∑_e x(n,e) · wt(e,j)) + b(j). -/
def linOut (x : I2 32768 1024 → EReal) (wt : I2 1024 1024 → EReal) (b : I1 1024 → EReal) : I2 32768 1024 → EReal :=
  fun i => (∑ e : Fin 1024, x (ix2 (i 0) e) * wt (ix2 e (i 1))) + b (ix1 (i 1))

/-- One projection as heads: token n, head h, entry d is (∑_e X(t,s,e) · W(j,e)) + b(j) at j = 64·h + d. -/
def proj (X : I3 32 1024 1024 → EReal) (W : I2 1024 1024 → EReal) (b : I1 1024 → EReal) : I3 32768 16 64 → EReal :=
  fun i => (∑ e : Fin 1024, X (ix3 (tokT (i 0)) (tokS (i 0)) e) * W (ix2 (feat (i 1) (i 2)) e)) + b (ix1 (feat (i 1) (i 2)))

/-- The attention weights: tanh of the scaled inner product of head h of q and head g of k. -/
def probs (q k : I3 32768 16 64 → EReal) : I3 32768 16 16 → EReal :=
  fun i => Ideal.tanh ((∑ d : Fin 64, q (ix3 (i 0) (i 1) d) * k (ix3 (i 0) (i 2) d)) * Ideal.ofBits .f32 0x3E000000#32)

/-- The context: head h, entry d is the sum over heads g of the weight (h,g) times v's head g, entry d. -/
def ctx (p : I3 32768 16 16 → EReal) (v : I3 32768 16 64 → EReal) : I3 32768 16 64 → EReal :=
  fun i => ∑ g : Fin 16, p (ix3 (i 0) (i 1) g) * v (ix3 (i 0) g (i 2))

end Cert.Spec

end
-- ==== Proof.ArrBase.lean ====
/-
  Every kernel body here loads and stores whole blocks: the rectangle of each access starts at offset zero on
  every axis. These are the three spellings of "all offsets zero", for blocks of one, two and three axes.
-/
import proofs.«122427_j7524782702743_2_alg».proof.Proof.Gen.KernelIdeal.Frame
import proofs.«122427_j7524782702743_2_alg».proof.Proof.Payload
import proofs.«122427_j7524782702743_2_alg».proof.Proof.Spec
import Idealize.ShloMosaic.Lib.Pipeline.Value
import Idealize.ShloMosaic.Lib.ValueIdx

set_option maxRecDepth 16384

noncomputable section

open scoped BigOperators

namespace Cert.KernelIdeal.Arr

open Cert.KernelIdeal Cert.KernelIdeal.Gen
open Idealize.ShloMosaic Idealize.ShloMosaic.TcCoe Idealize.SL.Sem Idealize.ShloMosaic.ValueIdx
open Idealize.ShloMosaic.Pipeline (Dat)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

end Cert.KernelIdeal.Arr

end
-- ==== Proof.Region0.lean ====
/-
  The first projection launch, from blocks to the whole array, on the extended reals.

  The launch has 32 grid points. Point t is handed the block of token rows 1024·t … 1024·t + 1023 of the
  flattened input, the whole transposed weight matrix and the whole bias, and writes back the same rows of the
  output. Entry (p, q) of what it writes is (∑_e x(p,e) · w(e,q)) + b(q), which is entry (1024·t + p, q) of the
  projection of the whole arrays, because row p of the block is row 1024·t + p of the input. Row r of the
  output lies in the block of point r / 1024, so the 32 blocks cover the array, and the array the launch
  leaves is the projection of the arrays it found. All of this holds for whatever contents V the launch is
  entered with.
-/
import proofs.«122427_j7524782702743_2_alg».proof.Proof.ArrBase

set_option maxRecDepth 16384

noncomputable section

open scoped BigOperators

namespace Cert.KernelIdeal.Arr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Projection launch 0: 32 points, point t owns token rows 1024·t … 1024·t + 1023 -/

/-- The printed index maps over the grid: the token block moves with the point, the weights and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The token block at point t, entry (p, e), is row 1024·t + p of the flattened input, column e. -/
theorem tok0_apply (c : Dev nD) (t : Fin cfg0.N) (p e : Fin 1024) (i : S32768x1024.Idx)
    (h0 : (i 0).val = 1024 * t.val + p.val) (h1 : (i 1).val = e.val) :
    (iblk0 V c 0 t : Vec Ideal S1024x1024 .f32) (ix2 p e) = (V c main_v0 : S32768x1024.Idx → EReal) i := by
  obtain ⟨e0, e1, -⟩ := idx0 t
  unfold iblk0
  rw [View.read_apply]
  show V c main_v0 _ = V c main_v0 _
  refine congrArg (V c main_v0) (funext fun a => Fin.ext ?_)
  match a with
  | ⟨0, _⟩ => show win0_0.index t (0 : Fin 2) * 1024 + 1 * p.val = (i 0).val; rw [e0, h0]; omega
  | ⟨1, _⟩ => show win0_0.index t (1 : Fin 2) * 1024 + 1 * e.val = (i 1).val; rw [e1, h1]; omega

/-- The weight block is the whole transposed weight matrix at every point. -/
theorem wt0_apply (c : Dev nD) (t : Fin cfg0.N) (e q : Fin 1024) (i : S1024x1024.Idx)
    (h0 : (i 0).val = e.val) (h1 : (i 1).val = q.val) :
    (iblk0 V c 1 t : Vec Ideal S1024x1024 .f32) (ix2 e q) = (V c main_v3 : S1024x1024.Idx → EReal) i := by
  obtain ⟨-, -, e2, e3, -⟩ := idx0 t
  unfold iblk0
  rw [View.read_apply]
  show V c main_v3 _ = V c main_v3 _
  refine congrArg (V c main_v3) (funext fun a => Fin.ext ?_)
  match a with
  | ⟨0, _⟩ => show win0_1.index t (0 : Fin 2) * 1024 + 1 * e.val = (i 0).val; rw [e2, h0]; omega
  | ⟨1, _⟩ => show win0_1.index t (1 : Fin 2) * 1024 + 1 * q.val = (i 1).val; rw [e3, h1]; omega

/-- The bias block is the whole bias at every point. -/
theorem bias0_apply (c : Dev nD) (t : Fin cfg0.N) (q : Fin 1024) (i : S1024.Idx) (h0 : (i 0).val = q.val) :
    (iblk0 V c 2 t : Vec Ideal S1024 .f32) (ix1 q) = (V c main_arg4 : S1024.Idx → EReal) i := by
  obtain ⟨-, -, -, -, e4, -⟩ := idx0 t
  unfold iblk0
  rw [View.read_apply]
  show V c main_arg4 _ = V c main_arg4 _
  refine congrArg (V c main_arg4) (funext fun a => Fin.ext ?_)
  match a with
  | ⟨0, _⟩ => show win0_2.index t (0 : Fin 1) * 1024 + 1 * q.val = (i 0).val; rw [e4, h0]; omega

/-- WHAT POINT t WRITES BACK is block t of the projection of the arrays as the launch finds them. -/
theorem flushed0 (c : Dev nD) (t : Fin cfg0.N) :
    (dat0 V c).flushed 3 t = ((cfg0.win 3).blk t).view.read (Elt Ideal)
      (Cert.Spec.linOut (V c main_v0) (V c main_v3) (V c main_arg4)) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1024) hz1]
  obtain ⟨-, -, -, -, -, e5, e6⟩ := idx0 t
  funext j
  obtain ⟨p, q, rfl⟩ : ∃ (p q : Fin 1024), j = ix2 p q := ⟨j 0, j 1, eq_ix2 j⟩
  show k0_pay1 (iblk0 V c 0 t) (iblk0 V c 1 t) (iblk0 V c 2 t) (ix2 p q)
    = Cert.Spec.linOut (V c main_v0) (V c main_v3) (V c main_arg4) (((cfg0.win 3).blk t).view.emb (ix2 p q))
  refine (Cert.KernelIdeal.Pay.linear_pay _ _ _ p q).trans ?_
  have hr0 : ((((cfg0.win 3).blk t).view.emb (ix2 p q)) 0).val = 1024 * t.val + p.val := by
    show win0_3.index t (0 : Fin 2) * 1024 + 1 * p.val = _; rw [e5]; omega
  have hr1 : ((((cfg0.win 3).blk t).view.emb (ix2 p q)) 1).val = q.val := by
    show win0_3.index t (1 : Fin 2) * 1024 + 1 * q.val = _; rw [e6]; omega
  unfold Cert.Spec.linOut
  refine congrArg₂ (fun u v : EReal => u + v) (Finset.sum_congr rfl fun e _ => ?_) ?_
  · exact congrArg₂ (fun u v : EReal => u * v) (tok0_apply V c t p e _ hr0 rfl) (wt0_apply V c t e q _ rfl hr1)
  · exact bias0_apply V c t q _ hr1

/-- An index of the output array is in point t's block iff its row is among the point's 1024 rows. -/
theorem mem_blk0 (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- THE OUTPUT ARRAY after the launch: the 32 blocks of 1024 rows tile the 32768 rows (row r is in the block of
    point r / 1024), so the array is the projection of the arrays as the launch finds them. -/
theorem final0 (c : Dev nD) :
    (dat0 V c).arrAt 3 cfg0.N = Cert.Spec.linOut (V c main_v0) (V c main_v3) (V c main_arg4) :=
  (dat0 V c).arrAt_eq_of_cover 3 _ (fun t _ => flushed0 V c t) fun i => by
    have h0 : (i 0).val < 32768 := (i 0).isLt
    have h1 : (i 1).val < 1024 := (i 1).isLt
    have hN : grid0.N = 32 := N_0
    refine ⟨⟨(i 0).val / 1024, by show _ < grid0.N; rw [hN]; omega⟩, flush0_3 _, ?_⟩
    rw [mem_blk0]
    obtain ⟨-, -, -, -, -, e5, e6⟩ := idx0 ⟨(i 0).val / 1024, by show _ < grid0.N; rw [hN]; omega⟩
    intro a
    match a with
    | ⟨0, _⟩ =>
      show win0_3.index _ (0 : Fin 2) * 1024 ≤ (i 0).val ∧ (i 0).val < win0_3.index _ (0 : Fin 2) * 1024 + 1024
      rw [e5]; show (i 0).val / 1024 * 1024 ≤ (i 0).val ∧ (i 0).val < (i 0).val / 1024 * 1024 + 1024; omega
    | ⟨1, _⟩ =>
      show win0_3.index _ (1 : Fin 2) * 1024 ≤ (i 1).val ∧ (i 1).val < win0_3.index _ (1 : Fin 2) * 1024 + 1024
      rw [e6]; omega

end Cert.KernelIdeal.Arr

end
-- ==== Proof.Region1.lean ====
/-
  The second projection launch, from blocks to the whole array, on the extended reals.

  The launch has 32 grid points. Point t is handed the block of token rows 1024·t … 1024·t + 1023 of the
  flattened input, the whole transposed weight matrix and the whole bias, and writes back the same rows of the
  output. Entry (p, q) of what it writes is (∑_e x(p,e) · w(e,q)) + b(q), which is entry (1024·t + p, q) of the
  projection of the whole arrays, because row p of the block is row 1024·t + p of the input. Row r of the
  output lies in the block of point r / 1024, so the 32 blocks cover the array, and the array the launch
  leaves is the projection of the arrays it found. All of this holds for whatever contents V the launch is
  entered with.
-/
import proofs.«122427_j7524782702743_2_alg».proof.Proof.ArrBase

set_option maxRecDepth 16384

noncomputable section

open scoped BigOperators

namespace Cert.KernelIdeal.Arr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Projection launch 1: 32 points, point t owns token rows 1024·t … 1024·t + 1023 -/

/-- The printed index maps over the grid: the token block moves with the point, the weights and the bias stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The token block at point t, entry (p, e), is row 1024·t + p of the flattened input, column e. -/
theorem tok1_apply (c : Dev nD) (t : Fin cfg1.N) (p e : Fin 1024) (i : S32768x1024.Idx)
    (h0 : (i 0).val = 1024 * t.val + p.val) (h1 : (i 1).val = e.val) :
    (iblk1 V c 0 t : Vec Ideal S1024x1024 .f32) (ix2 p e) = (V c main_v1 : S32768x1024.Idx → EReal) i := by
  obtain ⟨e0, e1, -⟩ := idx1 t
  unfold iblk1
  rw [View.read_apply]
  show V c main_v1 _ = V c main_v1 _
  refine congrArg (V c main_v1) (funext fun a => Fin.ext ?_)
  match a with
  | ⟨0, _⟩ => show win1_0.index t (0 : Fin 2) * 1024 + 1 * p.val = (i 0).val; rw [e0, h0]; omega
  | ⟨1, _⟩ => show win1_0.index t (1 : Fin 2) * 1024 + 1 * e.val = (i 1).val; rw [e1, h1]; omega

/-- The weight block is the whole transposed weight matrix at every point. -/
theorem wt1_apply (c : Dev nD) (t : Fin cfg1.N) (e q : Fin 1024) (i : S1024x1024.Idx)
    (h0 : (i 0).val = e.val) (h1 : (i 1).val = q.val) :
    (iblk1 V c 1 t : Vec Ideal S1024x1024 .f32) (ix2 e q) = (V c main_v5 : S1024x1024.Idx → EReal) i := by
  obtain ⟨-, -, e2, e3, -⟩ := idx1 t
  unfold iblk1
  rw [View.read_apply]
  show V c main_v5 _ = V c main_v5 _
  refine congrArg (V c main_v5) (funext fun a => Fin.ext ?_)
  match a with
  | ⟨0, _⟩ => show win1_1.index t (0 : Fin 2) * 1024 + 1 * e.val = (i 0).val; rw [e2, h0]; omega
  | ⟨1, _⟩ => show win1_1.index t (1 : Fin 2) * 1024 + 1 * q.val = (i 1).val; rw [e3, h1]; omega

/-- The bias block is the whole bias at every point. -/
theorem bias1_apply (c : Dev nD) (t : Fin cfg1.N) (q : Fin 1024) (i : S1024.Idx) (h0 : (i 0).val = q.val) :
    (iblk1 V c 2 t : Vec Ideal S1024 .f32) (ix1 q) = (V c main_arg6 : S1024.Idx → EReal) i := by
  obtain ⟨-, -, -, -, e4, -⟩ := idx1 t
  unfold iblk1
  rw [View.read_apply]
  show V c main_arg6 _ = V c main_arg6 _
  refine congrArg (V c main_arg6) (funext fun a => Fin.ext ?_)
  match a with
  | ⟨0, _⟩ => show win1_2.index t (0 : Fin 1) * 1024 + 1 * q.val = (i 0).val; rw [e4, h0]; omega

/-- WHAT POINT t WRITES BACK is block t of the projection of the arrays as the launch finds them. -/
theorem flushed1 (c : Dev nD) (t : Fin cfg1.N) :
    (dat1 V c).flushed 3 t = ((cfg1.win 3).blk t).view.read (Elt Ideal)
      (Cert.Spec.linOut (V c main_v1) (V c main_v5) (V c main_arg6)) := by
  show (cfg1.win 3).cut (grid1.coords t) ((dat1 V c).after 3 t) = _
  rw [after1_3]
  unfold out1_3
  rw [View.canon_unit_zero hz2]
  simp only [View.ld_unit_zero (S := S1024x1024) hz2, View.ld_unit_zero (S := S1024) hz1]
  obtain ⟨-, -, -, -, -, e5, e6⟩ := idx1 t
  funext j
  obtain ⟨p, q, rfl⟩ : ∃ (p q : Fin 1024), j = ix2 p q := ⟨j 0, j 1, eq_ix2 j⟩
  show k1_pay1 (iblk1 V c 0 t) (iblk1 V c 1 t) (iblk1 V c 2 t) (ix2 p q)
    = Cert.Spec.linOut (V c main_v1) (V c main_v5) (V c main_arg6) (((cfg1.win 3).blk t).view.emb (ix2 p q))
  rw [Cert.KernelIdeal.Pay.k1_pay1_eq]
  refine (Cert.KernelIdeal.Pay.linear_pay _ _ _ p q).trans ?_
  have hr0 : ((((cfg1.win 3).blk t).view.emb (ix2 p q)) 0).val = 1024 * t.val + p.val := by
    show win1_3.index t (0 : Fin 2) * 1024 + 1 * p.val = _; rw [e5]; omega
  have hr1 : ((((cfg1.win 3).blk t).view.emb (ix2 p q)) 1).val = q.val := by
    show win1_3.index t (1 : Fin 2) * 1024 + 1 * q.val = _; rw [e6]; omega
  unfold Cert.Spec.linOut
  refine congrArg₂ (fun u v : EReal => u + v) (Finset.sum_congr rfl fun e _ => ?_) ?_
  · exact congrArg₂ (fun u v : EReal => u * v) (tok1_apply V c t p e _ hr0 rfl) (wt1_apply V c t e q _ rfl hr1)
  · exact bias1_apply V c t q _ hr1

/-- An index of the output array is in point t's block iff its row is among the point's 1024 rows. -/
theorem mem_blk1 (t : Fin cfg1.N) (i : S32768x1024.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v6).slice (win1_3.rect t)).set ↔ _
  rw [View.set_slice_whole, Rect.mem_set_unit]
  exact Iff.rfl

/-- THE OUTPUT ARRAY after the launch: the 32 blocks of 1024 rows tile the 32768 rows (row r is in the block of
    point r / 1024), so the array is the projection of the arrays as the launch finds them. -/
theorem final1 (c : Dev nD) :
    (dat1 V c).arrAt 3 cfg1.N = Cert.Spec.linOut (V c main_v1) (V c main_v5) (V c main_arg6) :=
  (dat1 V c).arrAt_eq_of_cover 3 _ (fun t _ => flushed1 V c t) fun i => by
    have h0 : (i 0).val < 32768 := (i 0).isLt
    have h1 : (i 1).val < 1024 := (i 1).isLt
    have hN : grid1.N = 32 := N_1
    refine ⟨⟨(i 0).val / 1024, by show _ < grid1.N; rw [hN]; omega⟩, flush1_3 _, ?_⟩
    rw [mem_blk1]
    obtain ⟨-, -, -, -, -, e5, e6⟩ := idx1 ⟨(i 0).val / 1024, by show _ < grid1.N; rw [hN]; omega⟩
    intro a
    match a with
    | ⟨0, _⟩ =>
      show win1_3.index _ (0 : Fin 2) * 1024 ≤ (i 0).val ∧ (i 0).val < win1_3.index _ (0 : Fin 2) * 1024 + 1024
      rw [e5]; show (i 0).val / 1024 * 1024 ≤ (i 0).val ∧ (i 0).val < (i 0).val / 1024 * 1024 + 1024; omega
    | ⟨1, _⟩ =>
      show win1_3.index _ (1 : Fin 2) * 1024 ≤ (i 1).val ∧ (i 1).val < win1_3.index _ (1 : Fin 2) * 1024 + 1024
      rw [e6]; omega

end Cert.KernelIdeal.Arr

end
-- ==== Proof.Region2.lean ====
/-
  The third projection launch, from blocks to the whole array, on the extended reals.

  The launch has 32 grid points. Point t is handed the block of token rows 1024·t … 1024·t + 1023 of the
  flattened input, the whole transposed weight matrix and the whole bias, and writes back the same rows of the
  output. Entry (p, q) of what it writes is (∑_e x(p,e) · w(e,q)) + b(q), which is entry (1024·t + p, q) of the
  projection of the whole arrays, because row p of the block is row 1024·t + p of the input. Row r of the
  output lies in the block of point r / 1024, so the 32 blocks cover the array, and the array the launch
  leaves is the projection of the arrays it found. All of this holds for whatever contents V the launch is
  entered with.
-/
import proofs.«122427_j7524782702743_2_alg».proof.Proof.ArrBase

set_option maxRecDepth 16384

noncomputable section

open scoped BigOperators

namespace Cert.KernelIdeal.Arr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## Projection launch 2: 32 points, point t owns token rows 1024·t … 1024·t + 1023 -/

/-- The printed index maps over the grid: the token block moves with the point, the weights and the bias stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The token block at point t, entry (p, e), is row 1024·t + p of the flattened input, column e. -/
theorem tok2_apply (c : Dev nD) (t : Fin cfg2.N) (p e : Fin 1024) (i : S32768x1024.Idx)
    (h0 : (i 0).val = 1024 * t.val + p.val) (h1 : (i 1).val = e.val) :
    (iblk2 V c 0 t : Vec Ideal S1024x1024 .f32) (ix2 p e) = (V c main_v2 : S32768x1024.Idx → EReal) i := by
  obtain ⟨e0, e1, -⟩ := idx2 t
  unfold iblk2
  rw [View.read_apply]
  show V c main_v2 _ = V c main_v2 _
  refine congrArg (V c main_v2) (funext fun a => Fin.ext ?_)
  match a with
  | ⟨0, _⟩ => show win2_0.index t (0 : Fin 2) * 1024 + 1 * p.val = (i 0).val; rw [e0, h0]; omega
  | ⟨1, _⟩ => show win2_0.index t (1 : Fin 2) * 1024 + 1 * e.val = (i 1).val; rw [e1, h1]; omega

/-- The weight block is the whole transposed weight matrix at every point. -/
theorem wt2_apply (c : Dev nD) (t : Fin cfg2.N) (e q : Fin 1024) (i : S1024x1024.Idx)
    (h0 : (i 0).val = e.val) (h1 : (i 1).val = q.val) :
    (iblk2 V c 1 t : Vec Ideal S1024x1024 .f32) (ix2 e q) = (V c main_v7 : S1024x1024.Idx → EReal) i := by
  obtain ⟨-, -, e2, e3, -⟩ := idx2 t
  unfold iblk2
  rw [View.read_apply]
  show V c main_v7 _ = V c main_v7 _
  refine congrArg (V c main_v7) (funext fun a => Fin.ext ?_)
  match a with
  | ⟨0, _⟩ => show win2_1.index t (0 : Fin 2) * 1024 + 1 * e.val = (i 0).val; rw [e2, h0]; omega
  | ⟨1, _⟩ => show win2_1.index t (1 : Fin 2) * 1024 + 1 * q.val = (i 1).val; rw [e3, h1]; omega

/-- The bias block is the whole bias at every point. -/
theorem bias2_apply (c : Dev nD) (t : Fin cfg2.N) (q : Fin 1024) (i : S1024.Idx) (h0 : (i 0).val = q.val) :
    (iblk2 V c 2 t : Vec Ideal S1024 .f32) (ix1 q) = (V c main_arg8 : S1024.Idx → EReal) i := by
  obtain ⟨-, -, -, -, e4, -⟩ := idx2 t
  unfold iblk2
  rw [View.read_apply]
  show V c main_arg8 _ = V c main_arg8 _
  refine congrArg (V c main_arg8) (funext fun a => Fin.ext ?_)
  match a with
  | ⟨0, _⟩ => show win2_2.index t (0 : Fin 1) * 1024 + 1 * q.val = (i 0).val; rw [e4, h0]; omega

/-- WHAT POINT t WRITES BACK is block t of the projection of the arrays as the launch finds them. -/
theorem flushed2 (c : Dev nD) (t : Fin cfg2.N) :
    (dat2 V c).flushed 3 t = ((cfg2.win 3).blk t).view.read (Elt Ideal)
      (Cert.Spec.linOut (V c main_v2) (V c main_v7) (V c main_arg8)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1024) hz1]
  obtain ⟨-, -, -, -, -, e5, e6⟩ := idx2 t
  funext j
  obtain ⟨p, q, rfl⟩ : ∃ (p q : Fin 1024), j = ix2 p q := ⟨j 0, j 1, eq_ix2 j⟩
  show k2_pay1 (iblk2 V c 0 t) (iblk2 V c 1 t) (iblk2 V c 2 t) (ix2 p q)
    = Cert.Spec.linOut (V c main_v2) (V c main_v7) (V c main_arg8) (((cfg2.win 3).blk t).view.emb (ix2 p q))
  rw [Cert.KernelIdeal.Pay.k2_pay1_eq]
  refine (Cert.KernelIdeal.Pay.linear_pay _ _ _ p q).trans ?_
  have hr0 : ((((cfg2.win 3).blk t).view.emb (ix2 p q)) 0).val = 1024 * t.val + p.val := by
    show win2_3.index t (0 : Fin 2) * 1024 + 1 * p.val = _; rw [e5]; omega
  have hr1 : ((((cfg2.win 3).blk t).view.emb (ix2 p q)) 1).val = q.val := by
    show win2_3.index t (1 : Fin 2) * 1024 + 1 * q.val = _; rw [e6]; omega
  unfold Cert.Spec.linOut
  refine congrArg₂ (fun u v : EReal => u + v) (Finset.sum_congr rfl fun e _ => ?_) ?_
  · exact congrArg₂ (fun u v : EReal => u * v) (tok2_apply V c t p e _ hr0 rfl) (wt2_apply V c t e q _ rfl hr1)
  · exact bias2_apply V c t q _ hr1

/-- An index of the output array is in point t's block iff its row is among the point's 1024 rows. -/
theorem mem_blk2 (t : Fin cfg2.N) (i : S32768x1024.Idx) :
    i ∈ ((cfg2.win 3).blk t).view.set ↔ ∀ a : Fin 2, win2_3.index t a * S1024x1024.size a ≤ (i a).val
      ∧ (i a).val < win2_3.index t a * S1024x1024.size a + S1024x1024.size a := by
  show i ∈ ((View.whole main_v8).slice (win2_3.rect t)).set ↔ _
  rw [View.set_slice_whole, Rect.mem_set_unit]
  exact Iff.rfl

/-- THE OUTPUT ARRAY after the launch: the 32 blocks of 1024 rows tile the 32768 rows (row r is in the block of
    point r / 1024), so the array is the projection of the arrays as the launch finds them. -/
theorem final2 (c : Dev nD) :
    (dat2 V c).arrAt 3 cfg2.N = Cert.Spec.linOut (V c main_v2) (V c main_v7) (V c main_arg8) :=
  (dat2 V c).arrAt_eq_of_cover 3 _ (fun t _ => flushed2 V c t) fun i => by
    have h0 : (i 0).val < 32768 := (i 0).isLt
    have h1 : (i 1).val < 1024 := (i 1).isLt
    have hN : grid2.N = 32 := N_2
    refine ⟨⟨(i 0).val / 1024, by show _ < grid2.N; rw [hN]; omega⟩, flush2_3 _, ?_⟩
    rw [mem_blk2]
    obtain ⟨-, -, -, -, -, e5, e6⟩ := idx2 ⟨(i 0).val / 1024, by show _ < grid2.N; rw [hN]; omega⟩
    intro a
    match a with
    | ⟨0, _⟩ =>
      show win2_3.index _ (0 : Fin 2) * 1024 ≤ (i 0).val ∧ (i 0).val < win2_3.index _ (0 : Fin 2) * 1024 + 1024
      rw [e5]; show (i 0).val / 1024 * 1024 ≤ (i 0).val ∧ (i 0).val < (i 0).val / 1024 * 1024 + 1024; omega
    | ⟨1, _⟩ =>
      show win2_3.index _ (1 : Fin 2) * 1024 ≤ (i 1).val ∧ (i 1).val < win2_3.index _ (1 : Fin 2) * 1024 + 1024
      rw [e6]; omega

end Cert.KernelIdeal.Arr

end
-- ==== Proof.Region3.lean ====
/-
  The attention launch, from blocks to the whole arrays, on the extended reals.

  The launch has 64 grid points. Point t is handed the blocks of tokens 512·t … 512·t + 511 of the three
  projected arrays q, k, v (each [32768, 16, 64]) and writes back the same tokens of the weights
  ([32768, 16, 16]) and of the context ([32768, 16, 64]). For token n of the block, the weight of head h against
  head g is tanh of the inner product of head h of q with head g of k, times 0.125, and the context of head h
  at entry d is the sum over g of that weight times v(n, g, d). A token's weights and context use that token's
  rows only, and token n of the block is token 512·t + n of the arrays, so what the point writes is block t of
  the specification's weights and context of the whole arrays. Token r lies in the block of point r / 512, so
  the 64 blocks cover each output array. All of this holds for whatever contents V the launch is entered with.
-/
import proofs.«122427_j7524782702743_2_alg».proof.Proof.ArrBase

set_option maxRecDepth 16384

noncomputable section

open scoped BigOperators

namespace Cert.KernelIdeal.Arr

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The attention launch: 64 points, point t owns tokens 512·t … 512·t + 511 -/

/-- The printed index maps over the grid: every window's block moves with the point along the token axis only. -/
theorem idx3_0 : ∀ t : Fin cfg3.N, win3_0.index t (0 : Fin 3) = t.val ∧ win3_0.index t (1 : Fin 3) = 0
    ∧ win3_0.index t (2 : Fin 3) = 0 := (by decide +kernel : ∀ t : Fin grid3.N, _)
theorem idx3_1 : ∀ t : Fin cfg3.N, win3_1.index t (0 : Fin 3) = t.val ∧ win3_1.index t (1 : Fin 3) = 0
    ∧ win3_1.index t (2 : Fin 3) = 0 := (by decide +kernel : ∀ t : Fin grid3.N, _)
theorem idx3_2 : ∀ t : Fin cfg3.N, win3_2.index t (0 : Fin 3) = t.val ∧ win3_2.index t (1 : Fin 3) = 0
    ∧ win3_2.index t (2 : Fin 3) = 0 := (by decide +kernel : ∀ t : Fin grid3.N, _)
theorem idx3_3 : ∀ t : Fin cfg3.N, win3_3.index t (0 : Fin 3) = t.val ∧ win3_3.index t (1 : Fin 3) = 0
    ∧ win3_3.index t (2 : Fin 3) = 0 := (by decide +kernel : ∀ t : Fin grid3.N, _)
theorem idx3_4 : ∀ t : Fin cfg3.N, win3_4.index t (0 : Fin 3) = t.val ∧ win3_4.index t (1 : Fin 3) = 0
    ∧ win3_4.index t (2 : Fin 3) = 0 := (by decide +kernel : ∀ t : Fin grid3.N, _)

/-- Input window 0's block at point t, entry (n, h, d), is token 512·t + n of its array, head h, entry d. -/
theorem blk3_0_apply (c : Dev nD) (t : Fin cfg3.N) (n : Fin 512) (h : Fin 16) (d : Fin 64) (i : S32768x16x64.Idx)
    (h0 : (i 0).val = 512 * t.val + n.val) (h1 : (i 1).val = h.val) (h2 : (i 2).val = d.val) :
    (iblk3 V c 0 t : Vec Ideal S512x16x64 .bf16) (ix3 n h d) = (V c main_v9 : S32768x16x64.Idx → EReal) i := by
  obtain ⟨e0, e1, e2⟩ := idx3_0 t
  unfold iblk3
  rw [View.read_apply]
  show V c main_v9 _ = V c main_v9 _
  refine congrArg (V c main_v9) (funext fun a => Fin.ext ?_)
  match a with
  | ⟨0, _⟩ => show win3_0.index t (0 : Fin 3) * 512 + 1 * n.val = (i 0).val; rw [e0, h0]; omega
  | ⟨1, _⟩ => show win3_0.index t (1 : Fin 3) * 16 + 1 * h.val = (i 1).val; rw [e1, h1]; omega
  | ⟨2, _⟩ => show win3_0.index t (2 : Fin 3) * 64 + 1 * d.val = (i 2).val; rw [e2, h2]; omega

/-- Input window 1's block at point t, entry (n, h, d), is token 512·t + n of its array, head h, entry d. -/
theorem blk3_1_apply (c : Dev nD) (t : Fin cfg3.N) (n : Fin 512) (h : Fin 16) (d : Fin 64) (i : S32768x16x64.Idx)
    (h0 : (i 0).val = 512 * t.val + n.val) (h1 : (i 1).val = h.val) (h2 : (i 2).val = d.val) :
    (iblk3 V c 1 t : Vec Ideal S512x16x64 .bf16) (ix3 n h d) = (V c main_v10 : S32768x16x64.Idx → EReal) i := by
  obtain ⟨e0, e1, e2⟩ := idx3_1 t
  unfold iblk3
  rw [View.read_apply]
  show V c main_v10 _ = V c main_v10 _
  refine congrArg (V c main_v10) (funext fun a => Fin.ext ?_)
  match a with
  | ⟨0, _⟩ => show win3_1.index t (0 : Fin 3) * 512 + 1 * n.val = (i 0).val; rw [e0, h0]; omega
  | ⟨1, _⟩ => show win3_1.index t (1 : Fin 3) * 16 + 1 * h.val = (i 1).val; rw [e1, h1]; omega
  | ⟨2, _⟩ => show win3_1.index t (2 : Fin 3) * 64 + 1 * d.val = (i 2).val; rw [e2, h2]; omega

/-- Input window 2's block at point t, entry (n, h, d), is token 512·t + n of its array, head h, entry d. -/
theorem blk3_2_apply (c : Dev nD) (t : Fin cfg3.N) (n : Fin 512) (h : Fin 16) (d : Fin 64) (i : S32768x16x64.Idx)
    (h0 : (i 0).val = 512 * t.val + n.val) (h1 : (i 1).val = h.val) (h2 : (i 2).val = d.val) :
    (iblk3 V c 2 t : Vec Ideal S512x16x64 .bf16) (ix3 n h d) = (V c main_v11 : S32768x16x64.Idx → EReal) i := by
  obtain ⟨e0, e1, e2⟩ := idx3_2 t
  unfold iblk3
  rw [View.read_apply]
  show V c main_v11 _ = V c main_v11 _
  refine congrArg (V c main_v11) (funext fun a => Fin.ext ?_)
  match a with
  | ⟨0, _⟩ => show win3_2.index t (0 : Fin 3) * 512 + 1 * n.val = (i 0).val; rw [e0, h0]; omega
  | ⟨1, _⟩ => show win3_2.index t (1 : Fin 3) * 16 + 1 * h.val = (i 1).val; rw [e1, h1]; omega
  | ⟨2, _⟩ => show win3_2.index t (2 : Fin 3) * 64 + 1 * d.val = (i 2).val; rw [e2, h2]; omega

/-- The stored weight at block index (n, h, g) is the specification's weight of the arrays as the launch finds
    them, at any array index whose token is 512·t + n and whose heads are h and g. -/
theorem probs_blk (c : Dev nD) (t : Fin cfg3.N) (n : Fin 512) (h g : Fin 16) (i : S32768x16x16.Idx)
    (h0 : (i 0).val = 512 * t.val + n.val) (h1 : (i 1).val = h.val) (h2 : (i 2).val = g.val) :
    k3_pay1 (F := Ideal) (iblk3 V c 0 t) (iblk3 V c 1 t) (ix3 n h g)
      = Cert.Spec.probs (V c main_v9) (V c main_v10) i := by
  refine (Cert.KernelIdeal.Pay.probs_pay _ _ n h g).trans ?_
  unfold Cert.Spec.probs
  refine congrArg (fun s : EReal => Ideal.tanh (s * Ideal.ofBits .f32 0x3E000000#32)) (Finset.sum_congr rfl fun d _ => ?_)
  exact congrArg₂ (fun u v : EReal => u * v) (blk3_0_apply V c t n h d _ h0 h1 rfl) (blk3_1_apply V c t n g d _ h0 h2 rfl)

/-- WHAT POINT t WRITES BACK INTO THE WEIGHTS is block t of the specification's weights. -/
theorem flushed3_4 (c : Dev nD) (t : Fin cfg3.N) :
    (dat3 V c).flushed 4 t = ((cfg3.win 4).blk t).view.read (Elt Ideal)
      (Cert.Spec.probs (V c main_v9) (V c main_v10)) := by
  show (cfg3.win 4).cut (grid3.coords t) ((dat3 V c).after 4 t) = _
  rw [after3_4]
  unfold out3_4
  rw [View.canon_unit_zero hz3]
  simp only [View.ld_unit_zero (S := S512x16x64) hz3]
  obtain ⟨e0, e1, e2⟩ := idx3_4 t
  funext j
  obtain ⟨n, h, g, rfl⟩ : ∃ (n : Fin 512) (h g : Fin 16), j = ix3 n h g := ⟨j 0, j 1, j 2, eq_ix3 j⟩
  show k3_pay1 (iblk3 V c 0 t) (iblk3 V c 1 t) (ix3 n h g)
    = Cert.Spec.probs (V c main_v9) (V c main_v10) (((cfg3.win 4).blk t).view.emb (ix3 n h g))
  refine probs_blk V c t n h g _ ?_ ?_ ?_
  · show win3_4.index t (0 : Fin 3) * 512 + 1 * n.val = _; rw [e0]; omega
  · show win3_4.index t (1 : Fin 3) * 16 + 1 * h.val = _; rw [e1]; omega
  · show win3_4.index t (2 : Fin 3) * 16 + 1 * g.val = _; rw [e2]; omega

/-- WHAT POINT t WRITES BACK INTO THE CONTEXT is block t of the specification's context. -/
theorem flushed3_3 (c : Dev nD) (t : Fin cfg3.N) :
    (dat3 V c).flushed 3 t = ((cfg3.win 3).blk t).view.read (Elt Ideal)
      (Cert.Spec.ctx (Cert.Spec.probs (V c main_v9) (V c main_v10)) (V c main_v11)) := by
  show (cfg3.win 3).cut (grid3.coords t) ((dat3 V c).after 3 t) = _
  rw [after3_3]
  unfold out3_3
  rw [View.canon_unit_zero hz3]
  simp only [View.ld_unit_zero (S := S512x16x64) hz3]
  obtain ⟨e0, e1, e2⟩ := idx3_3 t
  funext j
  obtain ⟨n, h, d, rfl⟩ : ∃ (n : Fin 512) (h : Fin 16) (d : Fin 64), j = ix3 n h d := ⟨j 0, j 1, j 2, eq_ix3 j⟩
  show k3_pay2 (iblk3 V c 0 t) (iblk3 V c 1 t) (iblk3 V c 2 t) (ix3 n h d)
    = Cert.Spec.ctx (Cert.Spec.probs (V c main_v9) (V c main_v10)) (V c main_v11) (((cfg3.win 3).blk t).view.emb (ix3 n h d))
  refine (Cert.KernelIdeal.Pay.ctx_pay _ _ _ n h d).trans ?_
  have hr0 : ((((cfg3.win 3).blk t).view.emb (ix3 n h d)) 0).val = 512 * t.val + n.val := by
    show win3_3.index t (0 : Fin 3) * 512 + 1 * n.val = _; rw [e0]; omega
  have hr1 : ((((cfg3.win 3).blk t).view.emb (ix3 n h d)) 1).val = h.val := by
    show win3_3.index t (1 : Fin 3) * 16 + 1 * h.val = _; rw [e1]; omega
  have hr2 : ((((cfg3.win 3).blk t).view.emb (ix3 n h d)) 2).val = d.val := by
    show win3_3.index t (2 : Fin 3) * 64 + 1 * d.val = _; rw [e2]; omega
  unfold Cert.Spec.ctx
  refine Finset.sum_congr rfl fun g _ => ?_
  exact congrArg₂ (fun u v : EReal => u * v) (probs_blk V c t n h g _ hr0 hr1 rfl) (blk3_2_apply V c t n g d _ hr0 rfl hr2)

/-- An index of an output array is in point t's block iff its token is among the point's 512 tokens. -/
theorem mem_blk3_3 (t : Fin cfg3.N) (i : S32768x16x64.Idx) :
    i ∈ ((cfg3.win 3).blk t).view.set ↔ ∀ a : Fin 3, win3_3.index t a * S512x16x64.size a ≤ (i a).val
      ∧ (i a).val < win3_3.index t a * S512x16x64.size a + S512x16x64.size a := by
  show i ∈ ((View.whole main_v12_0).slice (win3_3.rect t)).set ↔ _
  rw [View.set_slice_whole, Rect.mem_set_unit]
  exact Iff.rfl
theorem mem_blk3_4 (t : Fin cfg3.N) (i : S32768x16x16.Idx) :
    i ∈ ((cfg3.win 4).blk t).view.set ↔ ∀ a : Fin 3, win3_4.index t a * S512x16x16.size a ≤ (i a).val
      ∧ (i a).val < win3_4.index t a * S512x16x16.size a + S512x16x16.size a := by
  show i ∈ ((View.whole main_v12_1).slice (win3_4.rect t)).set ↔ _
  rw [View.set_slice_whole, Rect.mem_set_unit]
  exact Iff.rfl

/-- THE WEIGHTS ARRAY after the launch: the 64 blocks of 512 tokens tile the 32768 tokens. -/
theorem final3_4 (c : Dev nD) :
    (dat3 V c).arrAt 4 cfg3.N = Cert.Spec.probs (V c main_v9) (V c main_v10) :=
  (dat3 V c).arrAt_eq_of_cover 4 _ (fun t _ => flushed3_4 V c t) fun i => by
    have h0 : (i 0).val < 32768 := (i 0).isLt
    have h1 : (i 1).val < 16 := (i 1).isLt
    have h2 : (i 2).val < 16 := (i 2).isLt
    have hN : grid3.N = 64 := N_3
    refine ⟨⟨(i 0).val / 512, by show _ < grid3.N; rw [hN]; omega⟩, flush3_4 _, ?_⟩
    rw [mem_blk3_4]
    obtain ⟨e0, e1, e2⟩ := idx3_4 ⟨(i 0).val / 512, by show _ < grid3.N; rw [hN]; omega⟩
    intro a
    match a with
    | ⟨0, _⟩ =>
      show win3_4.index _ (0 : Fin 3) * 512 ≤ (i 0).val ∧ (i 0).val < win3_4.index _ (0 : Fin 3) * 512 + 512
      rw [e0]; show (i 0).val / 512 * 512 ≤ (i 0).val ∧ (i 0).val < (i 0).val / 512 * 512 + 512; omega
    | ⟨1, _⟩ =>
      show win3_4.index _ (1 : Fin 3) * 16 ≤ (i 1).val ∧ (i 1).val < win3_4.index _ (1 : Fin 3) * 16 + 16
      rw [e1]; omega
    | ⟨2, _⟩ =>
      show win3_4.index _ (2 : Fin 3) * 16 ≤ (i 2).val ∧ (i 2).val < win3_4.index _ (2 : Fin 3) * 16 + 16
      rw [e2]; omega

/-- THE CONTEXT ARRAY after the launch. -/
theorem final3_3 (c : Dev nD) :
    (dat3 V c).arrAt 3 cfg3.N = Cert.Spec.ctx (Cert.Spec.probs (V c main_v9) (V c main_v10)) (V c main_v11) :=
  (dat3 V c).arrAt_eq_of_cover 3 _ (fun t _ => flushed3_3 V c t) fun i => by
    have h0 : (i 0).val < 32768 := (i 0).isLt
    have h1 : (i 1).val < 16 := (i 1).isLt
    have h2 : (i 2).val < 64 := (i 2).isLt
    have hN : grid3.N = 64 := N_3
    refine ⟨⟨(i 0).val / 512, by show _ < grid3.N; rw [hN]; omega⟩, flush3_3 _, ?_⟩
    rw [mem_blk3_3]
    obtain ⟨e0, e1, e2⟩ := idx3_3 ⟨(i 0).val / 512, by show _ < grid3.N; rw [hN]; omega⟩
    intro a
    match a with
    | ⟨0, _⟩ =>
      show win3_3.index _ (0 : Fin 3) * 512 ≤ (i 0).val ∧ (i 0).val < win3_3.index _ (0 : Fin 3) * 512 + 512
      rw [e0]; show (i 0).val / 512 * 512 ≤ (i 0).val ∧ (i 0).val < (i 0).val / 512 * 512 + 512; omega
    | ⟨1, _⟩ =>
      show win3_3.index _ (1 : Fin 3) * 16 ≤ (i 1).val ∧ (i 1).val < win3_3.index _ (1 : Fin 3) * 16 + 16
      rw [e1]; omega
    | ⟨2, _⟩ =>
      show win3_3.index _ (2 : Fin 3) * 64 ≤ (i 2).val ∧ (i 2).val < win3_3.index _ (2 : Fin 3) * 64 + 64
      rw [e2]; omega

end Cert.KernelIdeal.Arr

end
-- ==== Proof.Layout.lean ====
/-
  The kernel's way of laying out a projection is the specification's.

  The kernel flattens the input [32, 1024, 1024] to [32768, 1024], transposes the weight matrix, computes
  row n, column j as (∑_e x(n,e) · wt(e,j)) + b(j), and reads the [32768, 1024] result as [32768, 16, 64].
  Entry (n, h, d) of the last layout has flat position (n·16 + h)·64 + d = n·1024 + (64·h + d), so it is row n,
  column 64·h + d; row n of the flattened input is the input at (n / 1024, n % 1024), since
  (n / 1024)·1024 + n % 1024 = n; and the transposed matrix at (e, j) is the matrix at (j, e). So the entry is
  (∑_e X(n/1024, n%1024, e) · W(64·h + d, e)) + b(64·h + d): the specification's projection.
-/
import proofs.«122427_j7524782702743_2_alg».proof.Proof.Spec
import Idealize.ShloMosaic.Lib.Pipeline.Value
import Idealize.ShloMosaic.Lib.ValueIdx

noncomputable section

open scoped BigOperators

namespace Cert.Layout

open Idealize.ShloMosaic Idealize.ShloMosaic.ValueIdx Cert.Spec

theorem proj_layout (X : I3 32 1024 1024 → EReal) (W : I2 1024 1024 → EReal) (b : I1 1024 → EReal)
    (h1 : (⟨3, ![32, 1024, 1024]⟩ : Shape).ShapeCasts ⟨2, ![32768, 1024]⟩)
    (h2 : (⟨2, ![1024, 1024]⟩ : Shape).Transposes [1, 0] ⟨2, ![1024, 1024]⟩)
    (h3 : (⟨2, ![32768, 1024]⟩ : Shape).ShapeCasts ⟨3, ![32768, 16, 64]⟩) :
    shapeCast ⟨3, ![32768, 16, 64]⟩
        (linOut (shapeCast ⟨2, ![32768, 1024]⟩ X h1) (transpose ⟨2, ![1024, 1024]⟩ [1, 0] W h2) b) h3
      = proj X W b := by
  funext i
  obtain ⟨n, h, d, rfl⟩ : ∃ (n : Fin 32768) (h : Fin 16) (d : Fin 64), i = ix3 n h d := ⟨i 0, i 1, i 2, eq_ix3 i⟩
  have hn := n.isLt
  have hh := h.isLt
  have hd := d.isLt
  rw [shapeCast_apply _ h3 (ix3 n h d) (ix2 n (feat h d)) (by
    rw [Shape.rowMajor_val_two, Shape.rowMajor_val_three]
    show n.val * 1024 + (h.val * 64 + d.val) = (n.val * 16 + h.val) * 64 + d.val
    omega)]
  unfold linOut proj
  refine congrArg₂ (fun u v : EReal => u + v)
    (Finset.sum_congr rfl fun e _ => congrArg₂ (fun u v : EReal => u * v) ?_ ?_) rfl
  · exact shapeCast_apply X h1 (ix2 n e) (ix3 (tokT n) (tokS n) e) (by
      rw [Shape.rowMajor_val_three, Shape.rowMajor_val_two]
      show (n.val / 1024 * 1024 + n.val % 1024) * 1024 + e.val = n.val * 1024 + e.val
      omega)
  · exact transpose_apply [1, 0] W h2 (ix2 e (feat h d)) (ix2 (feat h d) e) (fun a => match a with
      | ⟨0, _⟩ => rfl
      | ⟨1, _⟩ => rfl)

end Cert.Layout

end
-- ==== Proof.KernelValue.lean ====
/-
  The idealized kernel's two results as functions of its nine arguments, on the extended reals.

  Write Q, K, V for the specification's three projections of the arguments (query with its weights and bias,
  key with its, value with its). Each projection launch leaves the projection of the arrays it found; it found
  the flattened input, the transposed weights and the bias, none of which anything before it had changed; and
  the recast of its output to [32768, 16, 64] is the specification's projection of the arguments. So the
  attention launch is entered with Q, K, V, leaves the specification's weights of Q and K in its second
  output and the specification's context of those weights and V in its first, and the last stretch of host
  operations exchanges the context's last two axes and recasts it to [32, 1024, 1024]. Nothing after the
  attention launch writes the weights, so they are the second result as they stand.
-/
import proofs.«122427_j7524782702743_2_alg».proof.Proof.KernelRun
import proofs.«122427_j7524782702743_2_alg».proof.Proof.Fold
import proofs.«122427_j7524782702743_2_alg».proof.Proof.Region0
import proofs.«122427_j7524782702743_2_alg».proof.Proof.Region1
import proofs.«122427_j7524782702743_2_alg».proof.Proof.Region2
import proofs.«122427_j7524782702743_2_alg».proof.Proof.Region3
import proofs.«122427_j7524782702743_2_alg».proof.Proof.Layout

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The three projections of the arguments, as the specification states them. -/
abbrev Qs (c : Dev nD) : Cert.Spec.I3 32768 16 64 → EReal :=
  Cert.Spec.proj (m ((c : Thread nD τ).loc main_arg0)) (m ((c : Thread nD τ).loc main_arg3)) (m ((c : Thread nD τ).loc main_arg4))
abbrev Ks (c : Dev nD) : Cert.Spec.I3 32768 16 64 → EReal :=
  Cert.Spec.proj (m ((c : Thread nD τ).loc main_arg1)) (m ((c : Thread nD τ).loc main_arg5)) (m ((c : Thread nD τ).loc main_arg6))
abbrev Vs (c : Dev nD) : Cert.Spec.I3 32768 16 64 → EReal :=
  Cert.Spec.proj (m ((c : Thread nD τ).loc main_arg2)) (m ((c : Thread nD τ).loc main_arg7)) (m ((c : Thread nD τ).loc main_arg8))

/-- The second result: the specification's weights of Q and K. -/
abbrev res1 (c : Dev nD) : Buf (Elt Ideal) ((c.tc : Thread nD τ).loc main_v12_1) :=
  Cert.Spec.probs (Qs m c) (Ks m c)
/-- The first result: the specification's context with its last two axes exchanged, recast to [32, 1024, 1024]. -/
abbrev res0 (c : Dev nD) : Buf (Elt Ideal) ((c.tc : Thread nD τ).loc main_v14) :=
  shapeCast _ (transpose S32768x64x16 [0, 2, 1] (Cert.Spec.ctx (Cert.Spec.probs (Qs m c) (Ks m c)) (Vs m c))
    transposes_S32768x16x64_S32768x64x16_0_2_1) shapeCasts_S32768x64x16_S32x1024x1024

/-- The attention launch is entered with Q … -/
theorem q_eq (c : Dev nD) : V7 m ρ c main_v9 = Qs m c := by
  rw [V7_v9 m ρ c, Cert.KernelIdeal.Arr.final0 (V1 m ρ) c, V1_v0 m ρ c, V1_v3 m ρ c, V1_arg4 m ρ c]
  exact Cert.Layout.proj_layout _ _ _ _ _ _
/-- … with K … -/
theorem k_eq (c : Dev nD) : V7 m ρ c main_v10 = Ks m c := by
  rw [V7_v10 m ρ c, Cert.KernelIdeal.Arr.final1 (V3 m ρ) c, V3_v1 m ρ c, V3_v5 m ρ c, V3_arg6 m ρ c]
  exact Cert.Layout.proj_layout _ _ _ _ _ _
/-- … and with V. -/
theorem v_eq (c : Dev nD) : V7 m ρ c main_v11 = Vs m c := by
  rw [V7_v11 m ρ c, Cert.KernelIdeal.Arr.final2 (V5 m ρ) c, V5_v2 m ρ c, V5_v7 m ρ c, V5_arg8 m ρ c]
  exact Cert.Layout.proj_layout _ _ _ _ _ _

/-- At the return the weights buffer holds the second result. -/
theorem probs_result (c : Dev nD) : W9 m ρ c (Proc.devRef .tc main_v12_1) = res1 m c := by
  rw [W9_v12_1 m ρ c, Cert.KernelIdeal.Arr.final3_4 (V7 m ρ) c, q_eq m ρ c, k_eq m ρ c]

/-- At the return the output buffer holds the first result. -/
theorem out_result (c : Dev nD) : W9 m ρ c (Proc.devRef .tc main_v14) = res0 m c := by
  rw [W9_v14 m ρ c, Cert.KernelIdeal.Arr.final3_3 (V7 m ρ) c, q_eq m ρ c, k_eq m ρ c, v_eq m ρ c]
  rfl

/-- The run, read: every weakly fair execution terminates, nothing faulting, with the two results at the
    specification's functions of the arguments and the arguments unchanged. -/
theorem run : θ_run defs (onTc (τ := τ) (main (F := Ideal))) ⟨m, fun _ => 0, ρ⟩ (fun r => ∀ c : Dev nD,
      r.2.mem ((c.tc : Thread nD τ).loc main_v14) = res0 m c
      ∧ r.2.mem ((c.tc : Thread nD τ).loc main_v12_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v14 (by decide))).trans (out_result m ρ c),
     (h c _ (mem_uc main_v12_1 (by decide))).trans (probs_result m ρ c),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c),
     (h c _ (mem_uc main_arg8 (by decide))).trans (W9_main_arg8 m ρ c)⟩)
    (run_all m ρ)

end Cert.KernelIdeal.Whole

end
-- ==== Proof.Consts.lean ====
/-
  The two float constants the programs spell, as the extended reals their patterns denote, and the one
  law that joins the two sides: the reference divides the scores by the square root of 64, the kernel
  multiplies them by 0.125. Since 64 = 8², the square root is exactly 8, and a quotient by 8 is the
  product with 1/8 on every extended real, the infinities included.
-/
import Idealize.ShloMosaic.PureOps.Ideal

noncomputable section

namespace Cert.Consts

open Idealize.ShloMosaic

/-- The pattern of `64.0` denotes the real 64. -/
theorem ofBits_64 : Ideal.ofBits .f32 0x42800000#32 = ((64 : ℝ) : EReal) := by
  simp [Ideal.ofBits, Ideal.ieee, -EReal.coe_mul]; norm_num

/-- The pattern of `0.125` denotes the real 1/8. -/
theorem ofBits_eighth : Ideal.ofBits .f32 0x3E000000#32 = ((1 / 8 : ℝ) : EReal) := by
  simp [Ideal.ofBits, Ideal.ieee, -EReal.coe_mul]; norm_num

/-- The square root of 64 is 8: 64 is the square of 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Dividing by the square root of 64 is multiplying by 0.125, on every extended real. -/
theorem div_sqrt64_eq_mul_eighth (x : EReal) :
    Ideal.div x (Ideal.sqrt (Ideal.ofBits .f32 0x42800000#32)) = x * Ideal.ofBits .f32 0x3E000000#32 := by
  rw [ofBits_64, sqrt_64, ofBits_eighth, Ideal.div_coe (by norm_num : (8 : ℝ) ≠ 0)]

end Cert.Consts

end
-- ==== Proof.RefIsSpec.lean ====
/-
  The reference program, stage by stage, computes the specification.

  A projection: the reference contracts the token's 1024 features with row j of the weight matrix, adds
  entry j of the bias, and reads the [32, 1024, 1024] result as [32768, 16, 64]. The flat position of
  (n, h, d) in the second layout is (n·16 + h)·64 + d = n·1024 + (64·h + d), and since 64·h + d < 1024 its
  coordinates in the first layout are t = n / 1024, s = n % 1024 and j = 64·h + d: the specification's
  token and feature.
  The weights: the scores are the inner products over the 64 entries of head h of the first projection
  and head g of the second, divided by the square root of 64, which is the product with 1/8; then tanh.
  The context: the sum over the 16 heads g of weight (h, g) times entry d of head g of the third projection.
-/
import proofs.«122427_j7524782702743_2_alg».proof.Proof.Gen.ReferenceIdeal.Read
import proofs.«122427_j7524782702743_2_alg».proof.Proof.Spec
import proofs.«122427_j7524782702743_2_alg».proof.Proof.Consts
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-! ## Where the reshaped projection reads its operands -/

/-- Entry (n, h, d) of the reshaped projection contracts over the features of token (n / 1024, n % 1024). -/
theorem lidx_proj (n : Fin 32768) (h : Fin 16) (d : Fin 64) (k : Fin 1024) :
    lidx_main_v0 (idx_main_v4 (ix3 n h d)) k = ix3 (Cert.Spec.tokT n) (Cert.Spec.tokS n) k := by
  funext a
  refine Fin.ext ?_
  have hn := n.isLt
  have hh := h.isLt
  have hd := d.isLt
  match a with
  | ⟨0, _⟩ =>
    show ((n.val * 16 + h.val) * 64 + d.val) / 1048576 = n.val / 1024
    omega
  | ⟨1, _⟩ =>
    show ((n.val * 16 + h.val) * 64 + d.val) / 1024 % 1024 = n.val % 1024
    omega
  | ⟨2, _⟩ => rfl

/-- … against row 64·h + d of the weight matrix … -/
theorem ridx_proj (n : Fin 32768) (h : Fin 16) (d : Fin 64) (k : Fin 1024) :
    ridx_main_v0 (idx_main_v4 (ix3 n h d)) k = ix2 (Cert.Spec.feat h d) k := by
  funext a
  refine Fin.ext ?_
  have hn := n.isLt
  have hh := h.isLt
  have hd := d.isLt
  match a with
  | ⟨0, _⟩ =>
    show ((n.val * 16 + h.val) * 64 + d.val) % 1024 = h.val * 64 + d.val
    omega
  | ⟨1, _⟩ => rfl

/-- … and adds entry 64·h + d of the bias. -/
theorem bidx_proj (n : Fin 32768) (h : Fin 16) (d : Fin 64) :
    idx_main_v1 (idx_main_v2 (idx_main_v4 (ix3 n h d))) = ix1 (Cert.Spec.feat h d) := by
  funext a
  refine Fin.ext ?_
  have hn := n.isLt
  have hh := h.isLt
  have hd := d.isLt
  match a with
  | ⟨0, _⟩ =>
    show ((n.val * 16 + h.val) * 64 + d.val) % 1024 = h.val * 64 + d.val
    omega

/-- The three projections are one expression of their arguments: the contraction, plus the bias, read
    through the change of layout, is the specification's projection. -/
theorem proj_core (X : (⟨S32x1024x1024, .f32⟩ : BufTy).Contents (Elt Ideal))
    (W : (⟨S1024x1024, .f32⟩ : BufTy).Contents (Elt Ideal)) (b : (⟨S1024, .f32⟩ : BufTy).Contents (Elt Ideal))
    (i : S32768x16x64.Idx) :
    (∑ k : Fin 1024, X (lidx_main_v0 (idx_main_v4 i) k) * W (ridx_main_v0 (idx_main_v4 i) k))
      + b (idx_main_v1 (idx_main_v2 (idx_main_v4 i))) = Cert.Spec.proj X W b i := by
  obtain ⟨n, h, d, rfl⟩ : ∃ n h d, i = ix3 n h d := ⟨i 0, i 1, i 2, eq_ix3 i⟩
  unfold Cert.Spec.proj
  refine congrArg₂ (fun u v => u + v) (Finset.sum_congr rfl fun k _ => ?_) (congrArg b (bidx_proj n h d))
  exact congrArg₂ (fun u v => u * v) (congrArg X (lidx_proj n h d k)) (congrArg W (ridx_proj n h d k))

/-! ## The three projections -/

theorem proj4_eq (x0 : (⟨S32x1024x1024, .f32⟩ : BufTy).Contents (Elt Ideal))
    (x3 : (⟨S1024x1024, .f32⟩ : BufTy).Contents (Elt Ideal)) (x4 : (⟨S1024, .f32⟩ : BufTy).Contents (Elt Ideal)) :
    val_main_v4 (F := Ideal) x0 x3 x4 = Cert.Spec.proj x0 x3 x4 := by
  funext i
  rw [val_main_v4_apply, val_main_v3_apply, val_main_v0_apply, val_main_v2_apply, val_main_v1_apply, Ideal.addf_def]
  exact proj_core x0 x3 x4 i

theorem proj9_eq (x1 : (⟨S32x1024x1024, .f32⟩ : BufTy).Contents (Elt Ideal))
    (x5 : (⟨S1024x1024, .f32⟩ : BufTy).Contents (Elt Ideal)) (x6 : (⟨S1024, .f32⟩ : BufTy).Contents (Elt Ideal)) :
    val_main_v9 (F := Ideal) x1 x5 x6 = Cert.Spec.proj x1 x5 x6 := by
  funext i
  rw [val_main_v9_apply, val_main_v8_apply, val_main_v5_apply, val_main_v7_apply, val_main_v6_apply, Ideal.addf_def]
  exact proj_core x1 x5 x6 i

theorem proj14_eq (x2 : (⟨S32x1024x1024, .f32⟩ : BufTy).Contents (Elt Ideal))
    (x7 : (⟨S1024x1024, .f32⟩ : BufTy).Contents (Elt Ideal)) (x8 : (⟨S1024, .f32⟩ : BufTy).Contents (Elt Ideal)) :
    val_main_v14 (F := Ideal) x2 x7 x8 = Cert.Spec.proj x2 x7 x8 := by
  funext i
  rw [val_main_v14_apply, val_main_v13_apply, val_main_v10_apply, val_main_v12_apply, val_main_v11_apply, Ideal.addf_def]
  exact proj_core x2 x7 x8 i

/-! ## The attention weights -/

/-- Weight (n, h, g) contracts entry k of head h of the first operand … -/
theorem lidx_scores (i : S32768x16x16.Idx) (k : Fin 64) : lidx_main_v15 i k = ix3 (i 0) (i 1) k := by
  funext a
  match a with
  | ⟨0, _⟩ => rfl
  | ⟨1, _⟩ => rfl
  | ⟨2, _⟩ => rfl

/-- … with entry k of head g of the second. -/
theorem ridx_scores (i : S32768x16x16.Idx) (k : Fin 64) : ridx_main_v15 i k = ix3 (i 0) (i 2) k := by
  funext a
  match a with
  | ⟨0, _⟩ => rfl
  | ⟨1, _⟩ => rfl
  | ⟨2, _⟩ => rfl

theorem probs_eq (x0 x1 : (⟨S32x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal)) :
    val_main_v19 (F := Ideal) x0 x1 x3 x4 x5 x6
      = Cert.Spec.probs (Cert.Spec.proj x0 x3 x4) (Cert.Spec.proj x1 x5 x6) := by
  funext i
  rw [val_main_v19_apply, val_main_v18_apply, val_main_v15_apply, val_main_v17_apply, val_main_v16_apply,
    val_main_cst_apply, proj4_eq, proj9_eq, Ideal.hostUnary_tanh_def, Ideal.hostDivf_def, Ideal.hostUnary_sqrt_def,
    Ideal.ofBits_def, Cert.Consts.div_sqrt64_eq_mul_eighth]
  unfold Cert.Spec.probs
  refine congrArg Ideal.tanh (congrArg (fun u => u * Ideal.ofBits .f32 0x3E000000#32) (Finset.sum_congr rfl fun k _ => ?_))
  exact congrArg₂ (fun u v => u * v) (congrArg _ (lidx_scores i k)) (congrArg _ (ridx_scores i k))

/-! ## The context -/

/-- Context entry (n, h, d) contracts weight (n, h, g) … -/
theorem lidx_ctx (i : S32768x16x64.Idx) (k : Fin 16) : lidx_main_v20 i k = ix3 (i 0) (i 1) k := by
  funext a
  match a with
  | ⟨0, _⟩ => rfl
  | ⟨1, _⟩ => rfl
  | ⟨2, _⟩ => rfl

/-- … with entry d of head g of the third projection. -/
theorem ridx_ctx (i : S32768x16x64.Idx) (k : Fin 16) : ridx_main_v20 i k = ix3 (i 0) k (i 2) := by
  funext a
  match a with
  | ⟨0, _⟩ => rfl
  | ⟨1, _⟩ => rfl
  | ⟨2, _⟩ => rfl

theorem ctx_eq (x0 x1 x2 : (⟨S32x1024x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal)) :
    val_main_v20 (F := Ideal) x0 x1 x2 x3 x4 x5 x6 x7 x8
      = Cert.Spec.ctx (Cert.Spec.probs (Cert.Spec.proj x0 x3 x4) (Cert.Spec.proj x1 x5 x6)) (Cert.Spec.proj x2 x7 x8) := by
  funext i
  rw [val_main_v20_apply, probs_eq, proj14_eq]
  unfold Cert.Spec.ctx
  refine Finset.sum_congr rfl fun k _ => ?_
  exact congrArg₂ (fun u v => u * v) (congrArg _ (lidx_ctx i k)) (congrArg _ (ridx_ctx i k))

end Cert.ReferenceIdeal.RefValue

end
-- ==== Proof.lean ====
/-
  The idealized attention kernel and its reference compute the same two results on the extended reals.

  Both programs project the query, key and value inputs [32, 1024, 1024] through a weight matrix and a bias,
  y_j = (∑_e x_e · W_{j,e}) + b_j per token, read the 1024 outputs of each of the 32768 tokens as 16 heads of 64
  features, form for each token the weights tanh(s(h,g)) from the scaled inner products s(h,g) of head h of the
  projected query with head g of the projected key, and the context ∑_g tanh(s(h,g)) · v(g,d). They return the
  weights, and the context with its last two axes exchanged, recast to [32, 1024, 1024].

  The kernel computes each projection block by block over 1024 token rows as a matrix product with the
  transposed weights into a zero accumulator, and the attention block by block over 512 tokens; the reference
  computes whole-array contractions. On the extended reals a matrix product into a zero accumulator is the plain
  sum of products, a change of float format is the identity, and neither a tiling nor the order of a sum
  matters, so the two agree stage by stage. They differ in ONE operation: the reference divides the scores by the
  square root of 64, the kernel multiplies them by 0.125. Since 64 = 8², the root is exactly 8, and x / 8 = x · (1/8)
  for every extended real x, the infinities included. No distributive law is used anywhere, so the equality
  holds at every extended-real input and the precondition (finite inputs) is never opened.

  Both sides are proved equal to one specification (Proof/Spec.lean): the kernel's run is read off the fold of its
  host stretches and launches (Proof/KernelValue.lean), the reference's off its operations one at a time
  (Proof/RefIsSpec.lean). The idealization rewrote no operation, so the kernel's idealization is its own text.
-/
import proofs.«122427_j7524782702743_2_alg».proof.Defs
import proofs.«122427_j7524782702743_2_alg».proof.Proof.Gen.Kernel
import proofs.«122427_j7524782702743_2_alg».proof.Proof.Gen.Kernel.Skeleton
import proofs.«122427_j7524782702743_2_alg».proof.Proof.Gen.Kernel.Launch
import proofs.«122427_j7524782702743_2_alg».proof.Proof.Gen.Kernel.Points
import proofs.«122427_j7524782702743_2_alg».proof.Proof.Gen.Kernel.Frame
import proofs.«122427_j7524782702743_2_alg».proof.Proof.Gen.KernelIdeal
import proofs.«122427_j7524782702743_2_alg».proof.Proof.Gen.KernelIdeal.Skeleton
import proofs.«122427_j7524782702743_2_alg».proof.Proof.Gen.KernelIdeal.Launch
import proofs.«122427_j7524782702743_2_alg».proof.Proof.Gen.KernelIdeal.Points
import proofs.«122427_j7524782702743_2_alg».proof.Proof.Gen.KernelIdeal.Frame
import proofs.«122427_j7524782702743_2_alg».proof.Proof.Gen.ReferenceIdeal
import proofs.«122427_j7524782702743_2_alg».proof.Proof.Gen.Pre_finite_inputs
import proofs.«122427_j7524782702743_2_alg».proof.Proof.Gen.ReferenceIdeal.Run
import proofs.«122427_j7524782702743_2_alg».proof.Proof.Gen.ReferenceIdeal.Read
import proofs.«122427_j7524782702743_2_alg».proof.Proof.KernelValue
import proofs.«122427_j7524782702743_2_alg».proof.Proof.RefIsSpec
import Idealize.ShloMosaic.Adequacy
import Idealize.ShloMosaic.Init

noncomputable section

namespace Cert.Proof

open Idealize.ShloMosaic Idealize.SL.Sem

/-- The kernel as printed runs to the end, nothing faulting, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference has no kernel launch: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation: there is nothing to restate. -/
theorem preserves : Cert.preserves_Kernel_KernelIdeal := trivial

/-- From memories agreeing on the nine arguments both programs run to the end, with the weights at the
    specification's weights of the projected query and key, and the output at the specification's context of
    those weights and the projected value, its last two axes exchanged, recast to [32, 1024, 1024]: the kernel by
    its run read back, the reference by its operations read one at a time. -/
theorem algebraic : Cert.algebraic_KernelIdeal_ReferenceIdeal := by
  intro m ρ m' ρ' _ hagree
  refine ⟨fun c => Cert.KernelIdeal.Whole.res0 m c, fun c => Cert.KernelIdeal.Whole.res1 m c,
    Cert.KernelIdeal.Whole.run m ρ, ?_⟩
  refine (θ_run Cert.ReferenceIdeal.defs _ _).mono (fun _ h c => ?_) (Cert.ReferenceIdeal.Value.run (F := Ideal) m' ρ')
  obtain ⟨h22, h19, hargs⟩ := h c
  obtain ⟨a0, a1, a2, a3, a4, a5, a6, a7, a8⟩ := hagree c
  refine ⟨h22.trans ?_, h19.trans ?_, hargs⟩
  · rw [a0, a1, a2, a3, a4, a5, a6, a7, a8, Cert.ReferenceIdeal.Read.val_main_v22_eq]
    unfold Cert.ReferenceIdeal.Read.val_main_v22 Cert.ReferenceIdeal.Read.val_main_v21
    rw [Cert.ReferenceIdeal.RefValue.ctx_eq]
    rfl
  · rw [a0, a1, a3, a4, a5, a6, Cert.ReferenceIdeal.Read.val_main_v19_eq, Cert.ReferenceIdeal.RefValue.probs_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
